-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256x256 .f32) (main_arg5 : FVec F S256 .f32) (main_v13 : IVec S_ 1) (main_v16 : IVec S8192x8192 1) : IVec S_ 1 :=
  let main_c_5 : IVec S_ 1 := constantI S_ 1 1#1
  let main_v17 : IVec S_ 1 := (fun x v => Host.reduce IntOp.andi x v reducesTo_S8192x8192_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S8192x256 .f32) (main_arg1 : FVec F S8192x256 .f32) (main_arg2 : FVec F S8192x8192 .f32) (main_arg3 : FVec F S8192x8192 .f32) (main_arg4 : FVec F S256x256 .f32) (main_arg5 : FVec F S256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S8192x8192 .f32 := Host.absf main_arg3
  let main_cst_4 : FVec F S_ .f32 := constant S_ .f32 0x7F800000#32
  let main_v15 : FVec F S8192x8192 .f32 := broadcastInDim S8192x8192 ![] bcast_S_S8192x8192 main_cst_4
  let main_v16 : IVec S8192x8192 1 := cmpf .olt main_v14 main_v15
  fn_part1 (F := F) main_arg4 main_arg5 main_v13 main_v16
-- ==== Kernel.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S1x256 : Shape := ⟨2, ![1, 256]⟩
abbrev S8192x1 : Shape := ⟨2, ![8192, 1]⟩
abbrev S1024x256 : Shape := ⟨2, ![1024, 256]⟩
abbrev S1024x1 : Shape := ⟨2, ![1024, 1]⟩
abbrev S1024 : Shape := ⟨1, ![1024]⟩
abbrev S1x8192 : Shape := ⟨2, ![1, 8192]⟩
abbrev S1x1 : Shape := ⟨2, ![1, 1]⟩
abbrev S1x1024 : Shape := ⟨2, ![1, 1024]⟩
abbrev S1024x1024 : Shape := ⟨2, ![1024, 1024]⟩
abbrev S1 : Shape := ⟨1, ![1]⟩
abbrev S_ : Shape := ⟨0, ![]⟩

abbrev nBuf : Space → Nat
  | .hbm => 21
  | .vmem => 30
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x8192, .f32⟩
  | .hbm, ⟨3, _⟩ => ⟨S8192x8192, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S1x256, .f32⟩
  | .hbm, ⟨8, _⟩ => ⟨S8192x256, .bf16⟩
  | .hbm, ⟨9, _⟩ => ⟨S8192x1, .f32⟩
  | .hbm, ⟨10, _⟩ => ⟨S8192x256, .bf16⟩
  | .hbm, ⟨11, _⟩ => ⟨S8192x1, .f32⟩
  | .hbm, ⟨12, _⟩ => ⟨S1x8192, .f32⟩
  | .hbm, ⟨13, _⟩ => ⟨S1x1, .f32⟩
  | .hbm, ⟨14, _⟩ => ⟨S1x1, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S256x256, .f32⟩
  | .local _ .vmem, ⟨3, _⟩ => ⟨S1x256, .f32⟩
  | .local _ .vmem, ⟨4, _⟩ => ⟨S1024x256, .bf16⟩
  | .local _ .vmem, ⟨5, _⟩ => ⟨S1024x256, .bf16⟩
  | .local _ .vmem, ⟨6, _⟩ => ⟨S1024x1, .f32⟩
  | .local _ .vmem, ⟨7, _⟩ => ⟨S1024x1, .f32⟩
  | .local _ .vmem, ⟨8, _⟩ => ⟨S1024x256, .f32⟩
  | .local _ .vmem, ⟨9, _⟩ => ⟨S1024x256, .f32⟩
  | .local _ .vmem, ⟨10, _⟩ => ⟨S256x256, .f32⟩
  | .local _ .vmem, ⟨11, _⟩ => ⟨S1x256, .f32⟩
  | .local _ .vmem, ⟨12, _⟩ => ⟨S1024x256, .bf16⟩
  | .local _ .vmem, ⟨13, _⟩ => ⟨S1024x256, .bf16⟩
  | .local _ .vmem, ⟨14, _⟩ => ⟨S1024x1, .f32⟩
  | .local _ .vmem, ⟨15, _⟩ => ⟨S1024x1, .f32⟩
  | .local _ .vmem, ⟨16, _⟩ => ⟨S1024x256, .bf16⟩
  | .local _ .vmem, ⟨17, _⟩ => ⟨S1024x256, .bf16⟩
  | .local _ .vmem, ⟨18, _⟩ => ⟨S1024x256, .bf16⟩
  | .local _ .vmem, ⟨19, _⟩ => ⟨S1024x256, .bf16⟩
  | .local _ .vmem, ⟨20, _⟩ => ⟨S1024x1, .f32⟩
  | .local _ .vmem, ⟨21, _⟩ => ⟨S1024x1, .f32⟩
  | .local _ .vmem, ⟨22, _⟩ => ⟨S1x1024, .f32⟩
  | .local _ .vmem, ⟨23, _⟩ => ⟨S1x1024, .f32⟩
  | .local _ .vmem, ⟨24, _⟩ => ⟨S1024x1024, .f32⟩
  | .local _ .vmem, ⟨25, _⟩ => ⟨S1024x1024, .f32⟩
  | .local _ .vmem, ⟨26, _⟩ => ⟨S1024x1024, .f32⟩
  | .local _ .vmem, ⟨27, _⟩ => ⟨S1024x1024, .f32⟩
  | .local _ .vmem, ⟨28, _⟩ => ⟨S1x1, .f32⟩
  | .local _ .vmem, ⟨29, _⟩ => ⟨S1x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3_0 : Ref sig .tc := ⟨.hbm, 10, rfl⟩
abbrev main_v3_1 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg7_0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25
abbrev cc2_sem5_0 : DmaSem sig := 26
abbrev cc2_sem5_1 : DmaSem sig := 27
abbrev cc2_sem6_0 : DmaSem sig := 28
abbrev cc2_sem7_0 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1024x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1024x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1024x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S1x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

class Facts₀ : Prop where
  transposes_S256x256_S256x256_1_0 : S256x256.Transposes [1, 0] S256x256
  shapeCasts_S256_S1x256 : S256.ShapeCasts S1x256
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  packedbf16_S1024x256_S1024x256_0_0 : (Rect.unit (s := S1024x256) ![0, 0] S1024x256.size inb_S1024x256_S1024x256_0_0).PackedRows (EltTy.packing .bf16)
  reduces_S1024x256_S1024 : S1024x256.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  transposes_S8192x1_S1x8192_1_0 : S8192x1.Transposes [1, 0] S1x8192
  inb_S1x1_S1x1_0_0 : ∀ a, (![0, 0] : Fin 2 → Nat) a + S1x1.size a ≤ S1x1.size a
  h_S1x1 : 0 < S1x1.numel
  shapeCasts_S1024x256_S1024x256 : S1024x256.ShapeCasts S1024x256
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  reduces_S1024x1_S1 : S1024x1.Reduces [0] S1
  shapeCasts_S1_S1x1 : S1.ShapeCasts S1x1
  shapeCasts_S1x1_S1x1 : S1x1.ShapeCasts S1x1
  shapeCasts_S1x1_S_ : S1x1.ShapeCasts S_
  dot_S1024x256_S256x256_S1024x256_1_0_0_1_n_n_wf : DotDims.WF S1024x256 S256x256 S1024x256 [1] [0] [0] [1] [] []
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S8192x256.size a
  hwx0_3 : ∀ i : grid0.Coords, EltTy.bits .bf16 = 32 ∨ (Rect.block (s := S8192x256) S1024x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .f32 = 32 ∨ (Rect.block (s := S8192x256) S1024x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S8192x256.size a
  hwx1_3 : ∀ i : grid1.Coords, EltTy.bits .bf16 = 32 ∨ (Rect.block (s := S8192x256) S1024x256.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S8192x1.size a
  hwx1_4 : ∀ i : grid1.Coords, EltTy.bits .f32 = 32 ∨ (Rect.block (s := S8192x1) S1024x1.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x256.size a ≤ S8192x256.size a
  hwx2_0 : ∀ i : grid2.Coords, EltTy.bits .bf16 = 32 ∨ (Rect.block (s := S8192x256) S1024x256.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x256.size a ≤ S8192x256.size a
  hwx2_1 : ∀ i : grid2.Coords, EltTy.bits .bf16 = 32 ∨ (Rect.block (s := S8192x256) S1024x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S8192x1.size a
  hwx2_2 : ∀ i : grid2.Coords, EltTy.bits .f32 = 32 ∨ (Rect.block (s := S8192x1) S1024x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x8192.size a
  hwx2_3 : ∀ i : grid2.Coords, EltTy.bits .f32 = 32 ∨ (Rect.block (s := S1x8192) S1x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x1024.size a ≤ S8192x8192.size a
  hwx2_4 : ∀ i : grid2.Coords, EltTy.bits .f32 = 32 ∨ (Rect.block (s := S8192x8192) S1024x1024.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x1024.size a ≤ S8192x8192.size a
  hwx2_5 : ∀ i : grid2.Coords, EltTy.bits .f32 = 32 ∨ (Rect.block (s := S8192x8192) S1024x1024.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x1.size a ≤ S1x1.size a
  hwx2_7 : ∀ i : grid2.Coords, EltTy.bits .f32 = 32 ∨ (Rect.block (s := S1x1) S1x1.size (cc2_transform_7 i) (hinb2_7 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S1024x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3_0) S1024x256.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3_1) S1024x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v2_0) S1024x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3_0) S1024x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2_1) S1024x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v4) S1x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg2) S1024x1024.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_arg3) S1024x1024.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v5_0) S1x1.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v5_1) S1x1.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S1x256 : Shape := ⟨2, ![1, 256]⟩
abbrev S_ : Shape := ⟨0, ![]⟩
abbrev S8192 : Shape := ⟨1, ![8192]⟩
abbrev S8192x1 : Shape := ⟨2, ![8192, 1]⟩
abbrev S256x8192 : Shape := ⟨2, ![256, 8192]⟩
abbrev S1x8192 : Shape := ⟨2, ![1, 8192]⟩

abbrev nBuf : Space → Nat
  | .hbm => 75
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x8192, .f32⟩
  | .hbm, ⟨3, _⟩ => ⟨S8192x8192, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S8192x256, .f32⟩
  | .hbm, ⟨8, _⟩ => ⟨S1x256, .f32⟩
  | .hbm, ⟨9, _⟩ => ⟨S8192x256, .f32⟩
  | .hbm, ⟨10, _⟩ => ⟨S8192x256, .f32⟩
  | .hbm, ⟨11, _⟩ => ⟨S_, .f32⟩
  | .hbm, ⟨12, _⟩ => ⟨S8192x256, .f32⟩
  | .hbm, ⟨13, _⟩ => ⟨S8192x256, .i1⟩
  | .hbm, ⟨14, _⟩ => ⟨S_, .f32⟩
  | .hbm, ⟨15, _⟩ => ⟨S8192x256, .f32⟩
  | .hbm, ⟨16, _⟩ => ⟨S8192x256, .i1⟩
  | .hbm, ⟨17, _⟩ => ⟨S_, .f32⟩
  | .hbm, ⟨18, _⟩ => ⟨S_, .f32⟩
  | .hbm, ⟨19, _⟩ => ⟨S8192x256, .f32⟩
  | .hbm, ⟨20, _⟩ => ⟨S8192x256, .f32⟩
  | .hbm, ⟨21, _⟩ => ⟨S8192x256, .f32⟩
  | .hbm, ⟨22, _⟩ => ⟨S_, .f32⟩
  | .hbm, ⟨23, _⟩ => ⟨S8192x256, .f32⟩
  | .hbm, ⟨24, _⟩ => ⟨S8192x256, .f32⟩
  | .hbm, ⟨25, _⟩ => ⟨S8192x256, .f32⟩
  | .hbm, ⟨26, _⟩ => ⟨S256x256, .f32⟩
  | .hbm, ⟨27, _⟩ => ⟨S8192x256, .f32⟩
  | .hbm, ⟨28, _⟩ => ⟨S1x256, .f32⟩
  | .hbm, ⟨29, _⟩ => ⟨S8192x256, .f32⟩
  | .hbm, ⟨30, _⟩ => ⟨S8192x256, .f32⟩
  | .hbm, ⟨31, _⟩ => ⟨S_, .f32⟩
  | .hbm, ⟨32, _⟩ => ⟨S8192x256, .f32⟩
  | .hbm, ⟨33, _⟩ => ⟨S8192x256, .i1⟩
  | .hbm, ⟨34, _⟩ => ⟨S_, .f32⟩
  | .hbm, ⟨35, _⟩ => ⟨S8192x256, .f32⟩
  | .hbm, ⟨36, _⟩ => ⟨S8192x256, .i1⟩
  | .hbm, ⟨37, _⟩ => ⟨S_, .f32⟩
  | .hbm, ⟨38, _⟩ => ⟨S_, .f32⟩
  | .hbm, ⟨39, _⟩ => ⟨S8192x256, .f32⟩
  | .hbm, ⟨40, _⟩ => ⟨S8192x256, .f32⟩
  | .hbm, ⟨41, _⟩ => ⟨S8192x256, .f32⟩
  | .hbm, ⟨42, _⟩ => ⟨S_, .f32⟩
  | .hbm, ⟨43, _⟩ => ⟨S8192x256, .f32⟩
  | .hbm, ⟨44, _⟩ => ⟨S8192x256, .f32⟩
  | .hbm, ⟨45, _⟩ => ⟨S8192x256, .f32⟩
  | .hbm, ⟨46, _⟩ => ⟨S8192x256, .f32⟩
  | .hbm, ⟨47, _⟩ => ⟨S_, .f32⟩
  | .hbm, ⟨48, _⟩ => ⟨S8192, .f32⟩
  | .hbm, ⟨49, _⟩ => ⟨S8192x1, .f32⟩
  | .hbm, ⟨50, _⟩ => ⟨S8192x1, .f32⟩
  | .hbm, ⟨51, _⟩ => ⟨S8192x256, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x1, .f32⟩
  | .hbm, ⟨56, _⟩ => ⟨S256x8192, .f32⟩
  | .hbm, ⟨57, _⟩ => ⟨S8192x8192, .f32⟩
  | .hbm, ⟨58, _⟩ => ⟨S1x8192, .f32⟩
  | .hbm, ⟨59, _⟩ => ⟨S8192x8192, .f32⟩
  | .hbm, ⟨60, _⟩ => ⟨S8192x8192, .f32⟩
  | .hbm, ⟨61, _⟩ => ⟨S_, .f32⟩
  | .hbm, ⟨62, _⟩ => ⟨S8192x8192, .f32⟩
  | .hbm, ⟨63, _⟩ => ⟨S8192x8192, .f32⟩
  | .hbm, ⟨64, _⟩ => ⟨S8192x8192, .f32⟩
  | .hbm, ⟨65, _⟩ => ⟨S8192x8192, .f32⟩
  | .hbm, ⟨66, _⟩ => ⟨S8192x8192, .f32⟩
  | .hbm, ⟨67, _⟩ => ⟨S_, .f32⟩
  | .hbm, ⟨68, _⟩ => ⟨S_, .f32⟩
  | .hbm, ⟨69, _⟩ => ⟨S8192x8192, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_cst_0 : Ref sig .tc := ⟨.hbm, 14, rfl⟩
abbrev main_call0_v2 : Ref sig .tc := ⟨.hbm, 15, rfl⟩
abbrev main_call0_v3 : Ref sig .tc := ⟨.hbm, 16, rfl⟩
abbrev main_call0_cst_1 : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_v4 : Ref sig .tc := ⟨.hbm, 20, rfl⟩
abbrev main_call0_v5 : Ref sig .tc := ⟨.hbm, 21, rfl⟩
abbrev main_call0_cst_2 : Ref sig .tc := ⟨.hbm, 22, rfl⟩
abbrev main_call0_v6 : Ref sig .tc := ⟨.hbm, 23, rfl⟩
abbrev main_call0_v7 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_call1_cst : Ref sig .tc := ⟨.hbm, 31, rfl⟩
abbrev main_call1_v0 : Ref sig .tc := ⟨.hbm, 32, rfl⟩
abbrev main_call1_v1 : Ref sig .tc := ⟨.hbm, 33, rfl⟩
abbrev main_call1_cst_0 : Ref sig .tc := ⟨.hbm, 34, rfl⟩
abbrev main_call1_v2 : Ref sig .tc := ⟨.hbm, 35, rfl⟩
abbrev main_call1_v3 : Ref sig .tc := ⟨.hbm, 36, rfl⟩
abbrev main_call1_cst_1 : Ref sig .tc := ⟨.hbm, 37, rfl⟩
abbrev main_call1_call0_v0 : Ref sig .tc := ⟨.hbm, 38, rfl⟩
abbrev main_call1_call0_v1 : Ref sig .tc := ⟨.hbm, 39, rfl⟩
abbrev main_call1_v4 : Ref sig .tc := ⟨.hbm, 40, rfl⟩
abbrev main_call1_v5 : Ref sig .tc := ⟨.hbm, 41, rfl⟩
abbrev main_call1_cst_2 : Ref sig .tc := ⟨.hbm, 42, rfl⟩
abbrev main_call1_v6 : Ref sig .tc := ⟨.hbm, 43, rfl⟩
abbrev main_call1_v7 : Ref sig .tc := ⟨.hbm, 44, rfl⟩
abbrev main_v11 : Ref sig .tc := ⟨.hbm, 45, rfl⟩
abbrev main_call2_v0 : Ref sig .tc := ⟨.hbm, 46, rfl⟩
abbrev main_call2_cst : Ref sig .tc := ⟨.hbm, 47, rfl⟩
abbrev main_call2_v1 : Ref sig .tc := ⟨.hbm, 48, rfl⟩
abbrev main_call2_v2 : Ref sig .tc := ⟨.hbm, 49, rfl⟩
abbrev main_v12 : Ref sig .tc := ⟨.hbm, 50, rfl⟩
abbrev main_call3_v0 : Ref sig .tc := ⟨.hbm, 51, rfl⟩
abbrev main_call3_cst : Ref sig .tc := ⟨.hbm, 52, rfl⟩
abbrev main_call3_v1 : Ref sig .tc := ⟨.hbm, 53, rfl⟩
abbrev main_call3_v2 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_cst : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_cst_0 : Ref sig .tc := ⟨.hbm, 67, rfl⟩
abbrev main_v24 : Ref sig .tc := ⟨.hbm, 68, rfl⟩
abbrev main_v25 : Ref sig .tc := ⟨.hbm, 69, rfl⟩
abbrev main_cst_1 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  reducesTo_S8192x256_S8192_d1 : S8192x256.ReducesTo [1] S8192
  h_S_ : 0 < S_.numel
  bcast_S8192_S8192x1_0 : S8192.BroadcastsInDim S8192x1 (![0] : Fin 1 → Fin S8192x1.rank)
  transposes_S8192x256_S256x8192_1_0 : S8192x256.Transposes [1, 0] S256x8192
  transposes_S8192x1_S1x8192_1_0 : S8192x1.Transposes [1, 0] S1x8192
  bcast_S_S8192x8192 : S_.BroadcastsInDim S8192x8192 (![] : Fin 0 → Fin S8192x8192.rank)
  reducesTo_S8192x8192_S_d0_1 : S8192x8192.ReducesTo [0, 1] S_
  dot_S8192x256_S256x256_S8192x256_1_0_0_1_n_n_wf : DotDims.WF S8192x256 S256x256 S8192x256 [1] [0] [0] [1] [] []
  dot_S8192x256_S256x8192_S8192x8192_1_0_0_1_n_n_wf : DotDims.WF S8192x256 S256x8192 S8192x8192 [1] [0] [0] [1] [] []
  dot_S8192x1_S1x8192_S8192x8192_1_0_0_1_n_n_wf : DotDims.WF S8192x1 S1x8192 S8192x8192 [1] [0] [0] [1] [] []

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def dot_S8192x1_S1x8192_S8192x8192_1_0_0_1_n_n : DotDims S8192x1 S1x8192 S8192x8192 where
  lhsContracting := [1]
  rhsContracting := [0]
  lhsNonContracting := [0]
  rhsNonContracting := [1]
  lhsBatch := []
  rhsBatch := []
  wf := dot_S8192x1_S1x8192_S8192x8192_1_0_0_1_n_n_wf

class Facts : Prop extends Facts₀ where

variable [Facts]
-- ==== Proof.KRun.lean ====
/-
  The run of the whole program with its result named.

  The program is three launches among stretches of host operations. Every weakly fair execution from any memory with zero
  counters terminates without a fault, and in the final state every unscoped buffer holds the fold of the segments over
  the launch memory; this states the run with the result buffer read at that fold beside the unchanged arguments.
-/
import proofs.«112058_j47974784697102_1_alg».proof.Proof.Gen.KernelIdeal.Frame

set_option maxRecDepth 16384

noncomputable section

namespace Cert.KernelIdeal.RunV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents and
    the argument arrays as launched. -/
theorem run_result : θ_run defs (onTc (τ := τ) (main (F := F))) ⟨m, fun _ => 0, ρ⟩ (fun r => ∀ c : Dev nD,
      r.2.mem ((c.tc : Thread nD τ).loc main_v11) = W6 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v11 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.RunV

end
-- ==== Proof.LibDense.lean ====
/-
  Dense layers on the extended reals, entry by entry.

  A matrix product is read at an entry as the sum over the contracted axis of the products of the
  operands' entries; an affine layer adds a bias row to every row of a product; the rectifier takes
  the maximum with zero. The vector unit's matrix product into a zero accumulator and the host's
  general dot product with one contracted axis are both this sum at every entry, so a layer computed
  block of rows by block of rows and a layer computed on the whole array are one function.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Dense

open Idealize.ShloMosaic Idealize.ShloMosaic.ValueIdx

variable {M K N : ℕ}

/-- A matrix of extended reals with `a` rows and `b` columns. -/
abbrev Mat (a b : ℕ) : Type := (⟨2, ![a, b]⟩ : Shape).Idx → EReal
/-- A row of `a` extended reals. -/
abbrev Row (a : ℕ) : Type := (⟨1, ![a]⟩ : Shape).Idx → EReal

/-- The matrix product: entry (r, c) is the sum over k of A(r, k) · W(k, c). -/
def mm (A : Mat M K) (W : Mat K N) : Mat M N := fun i => ∑ k : Fin K, A (ix2 (i 0) k) * W (ix2 k (i 1))

/-- An affine layer: the product plus the bias of the entry's column. -/
def affine (A : Mat M K) (W : Mat K N) (b : Row N) : Mat M N := fun i => mm A W i + b (ix1 (i 1))

/-- The rectifier: the maximum with zero, entry by entry. -/
def relu (X : Mat M N) : Mat M N := fun i => max (X i) 0

/-- The sum over the one contracted axis of a plain M×K by K×N product is the sum over `Fin K`. -/
theorem plain_sum (a : Mat M K) (b : Mat K N) (j : (⟨2, ![M, N]⟩ : Shape).Idx) :
    ∑ k : (DotDims.plain M K N).contr.Idx, a ((DotDims.plain M K N).lhsIdx j k) * b ((DotDims.plain M K N).rhsIdx j k)
      = mm a b j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  exact congr (congrArg _ (congrArg a el)) (congrArg b er)

/-- The vector unit's plain matrix product into a zero accumulator is the product, entry by entry. -/
theorem matmul_plain_zero {φ₁ φ₂ : FTy} (prec : Option ContractPrecision) (a : FVec Ideal ⟨2, ![M, K]⟩ φ₁) (b : FVec Ideal ⟨2, ![K, N]⟩ φ₂) :
    matmul (DotDims.plain M K N) prec a b (constant (F := Ideal) ⟨2, ![M, N]⟩ .f32 0x00000000#32) = mm a b := by
  funext j
  simp only [matmul]
  rw [Ideal.matmul_constant_zero_apply]
  exact plain_sum a b j

/-- The host's plain general dot product is the product, entry by entry. -/
theorem dotGeneral_plain {φ₁ φ₂ : FTy} (a : FVec Ideal ⟨2, ![M, K]⟩ φ₁) (b : FVec Ideal ⟨2, ![K, N]⟩ φ₂) :
    Host.dotGeneral (F := Ideal) (DotDims.plain M K N) none a b = mm a b := by
  funext j
  simp only [Host.dotGeneral]
  rw [Ideal.dotGeneral_apply]
  exact plain_sum a b j

/-- A change of float format is the identity on the extended reals. -/
theorem truncf_id {s : Shape} {φ ψ : FTy} (a : FVec Ideal s φ) (h : ψ.bits < φ.bits) : (truncf ψ a h : FVec Ideal s ψ) = a := rfl

/-! ## A layer as the vector unit computes it on a block of rows -/

/-- An affine layer whose bias is stored as a one-row matrix. -/
def affine2 (A : Mat M K) (W : Mat K N) (b : Mat 1 N) : Mat M N := fun i => mm A W i + b (ix2 (0 : Fin 1) (i 1))

/-- The product into a zero accumulator plus the bias row broadcast over the rows. -/
theorem addf_matmul_broadcastTo {φ₁ φ₂ : FTy} (prec : Option ContractPrecision) (a : FVec Ideal ⟨2, ![M, K]⟩ φ₁)
    (w : FVec Ideal ⟨2, ![K, N]⟩ φ₂) (b : FVec Ideal ⟨2, ![1, N]⟩ .f32) (h : (⟨2, ![1, N]⟩ : Shape).Broadcasts ⟨2, ![M, N]⟩) :
    addf (matmul (DotDims.plain M K N) prec a w (constant (F := Ideal) ⟨2, ![M, N]⟩ .f32 0x00000000#32)) (broadcastTo ⟨2, ![M, N]⟩ b h)
      = affine2 a w b := by
  rw [matmul_plain_zero]
  funext i
  obtain ⟨p, q, rfl⟩ : ∃ (p : Fin M) (q : Fin N), i = ix2 p q := ⟨i 0, i 1, eq_ix2 i⟩
  show mm a w (ix2 p q) + broadcastTo ⟨2, ![M, N]⟩ b h (ix2 p q) = _
  rw [broadcastTo_1b_ab_apply]
  rfl

/-- The maximum with a splat of the zero word is the rectifier. -/
theorem maximumf_splat_zero (X : FVec Ideal ⟨2, ![M, N]⟩ .f32) :
    maximumf X (broadcast ⟨2, ![M, N]⟩ (Scalar.ofBits (F := Ideal) .f32 0x00000000#32)) = relu X := by
  funext i
  show max (X i) (Ideal.ofBits .f32 0x00000000#32) = max (X i) 0
  rw [Ideal.ofBits_zero_f32]

/-! ## A layer as the host computes it on the whole array -/

/-- The bias of an affine layer with its one-row form: the row read at its one row index. -/
theorem affine_eq_affine2 (A : Mat M K) (W : Mat K N) (b : Row N) (b2 : Mat 1 N)
    (hb : ∀ q : Fin N, b2 (ix2 (0 : Fin 1) q) = b (ix1 q)) : affine2 A W b2 = affine A W b := by
  funext i
  obtain ⟨p, q, rfl⟩ : ∃ (p : Fin M) (q : Fin N), i = ix2 p q := ⟨i 0, i 1, eq_ix2 i⟩
  show mm A W (ix2 p q) + b2 (ix2 (0 : Fin 1) q) = mm A W (ix2 p q) + b (ix1 q)
  rw [hb]

/-- The host's product plus the bias broadcast first to one row and then over the rows. -/
theorem addf_dotGeneral_broadcastInDim {φ₁ φ₂ : FTy} (a : FVec Ideal ⟨2, ![M, K]⟩ φ₁) (w : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral (F := Ideal) (DotDims.plain M K N) none a w)
        (broadcastInDim ⟨2, ![M, N]⟩ ![0, 1] h2 (broadcastInDim ⟨2, ![1, N]⟩ ![1] h1 b))
      = affine a w b := by
  rw [dotGeneral_plain]
  funext i
  obtain ⟨p, q, rfl⟩ : ∃ (p : Fin M) (q : Fin N), i = ix2 p q := ⟨i 0, i 1, eq_ix2 i⟩
  show mm a w (ix2 p q) + broadcastInDim ⟨2, ![M, N]⟩ ![0, 1] h2 (broadcastInDim ⟨2, ![1, N]⟩ ![1] h1 b) (ix2 p q) = mm a w (ix2 p q) + b (ix1 q)
  rw [broadcastInDim_apply ![0, 1] h2 _ (ix2 p q) (ix2 (0 : Fin 1) q) (fun ax => by
      match ax with
      | ⟨0, _⟩ => rfl
      | ⟨1, _⟩ =>
        show q.val = if N = 1 then 0 else q.val
        split
        · have := q.isLt; omega
        · rfl),
    broadcastInDim_apply ![1] h1 b (ix2 (0 : Fin 1) q) (ix1 q) (fun ax => by
      match ax with
      | ⟨0, _⟩ =>
        show q.val = if N = 1 then 0 else q.val
        split
        · have := q.isLt; omega
        · rfl)]

/-- The maximum with the zero scalar broadcast to the whole shape is the rectifier. -/
theorem maximumf_broadcastInDim_zero (X : FVec Ideal ⟨2, ![M, N]⟩ .f32)
    (h : (⟨0, ![]⟩ : Shape).BroadcastsInDim ⟨2, ![M, N]⟩ ![]) :
    maximumf X (broadcastInDim ⟨2, ![M, N]⟩ ![] h (constant (F := Ideal) ⟨0, ![]⟩ .f32 0x00000000#32)) = relu X := by
  funext i
  show max (X i) (broadcastInDim ⟨2, ![M, N]⟩ ![] h (constant (F := Ideal) ⟨0, ![]⟩ .f32 0x00000000#32) i) = max (X i) 0
  rw [broadcastInDim_apply ![] h _ i ix0 (fun ax => ax.elim0)]
  show max (X i) (Ideal.ofBits .f32 0x00000000#32) = max (X i) 0
  rw [Ideal.ofBits_zero_f32]

/-! ## Rows of a layer -/

/-- A layer on a block of rows is the layer on the whole array at those rows: entry (p, q) of the block's result is
    entry (ρ p, q) of the whole result when row p of the block is row ρ p of the array. -/
theorem mm_rows {M' : ℕ} (A : Mat M' K) (blk : Mat M K) (W : Mat K N) (ρ : Fin M → Fin M')
    (h : ∀ p k, blk (ix2 p k) = A (ix2 (ρ p) k)) (p : Fin M) (q : Fin N) :
    mm blk W (ix2 p q) = mm A W (ix2 (ρ p) q) := by
  unfold mm
  exact Finset.sum_congr rfl fun k _ => by rw [show (ix2 p q : (⟨2, ![M, N]⟩ : Shape).Idx) 0 = p from rfl, h p k]; rfl

/-- So a rectified affine layer on a block of rows, with the whole weight matrix and bias row, is the layer on the
    whole array at those rows. -/
theorem relu_affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    relu (affine2 blk W b) (ix2 p q) = relu (affine2 A W b) (ix2 (ρ p) q) := by
  show max (mm blk W (ix2 p q) + b (ix2 (0 : Fin 1) q)) 0 = max (mm A W (ix2 (ρ p) q) + b (ix2 (0 : Fin 1) q)) 0
  rw [mm_rows A blk W ρ h p q]

/-- The same without the rectifier. -/
theorem affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    affine2 blk W b (ix2 p q) = affine2 A W b (ix2 (ρ p) q) := by
  show mm blk W (ix2 p q) + b (ix2 (0 : Fin 1) q) = mm A W (ix2 (ρ p) q) + b (ix2 (0 : Fin 1) q)
  rw [mm_rows A blk W ρ h p q]

end Cert.Dense

end
-- ==== Proof.LibLiterals.lean ====
/-
  The float literals the two programs scatter, read on the extended reals: the words of one and
  of zero in bf16 and in f32 denote `1` and `0`.
-/
import Idealize.ShloMosaic.PureOps.Ideal
import Idealize.ShloMosaic.PureOps.Ideal.Laws

namespace Cert.LibLiterals

open Idealize.ShloMosaic

/-- The bf16 word `0x3F80` (sign 0, exponent 127, fraction 0) denotes `1`. -/
theorem ofBits_bf16_one : Ideal.ofBits .bf16 0x3F80#16 = (1 : EReal) := by
  simp [Ideal.ofBits, Ideal.ieee, -EReal.coe_mul]; norm_num

/-- The f32 word `0x3F800000` (sign 0, exponent 127, fraction 0) denotes `1`. -/
theorem ofBits_f32_one : Ideal.ofBits .f32 0x3F800000#32 = (1 : EReal) := by
  simp [Ideal.ofBits, Ideal.ieee, -EReal.coe_mul]; norm_num

/-- The bf16 word `0x0000` denotes `0`. -/
theorem ofBits_bf16_zero : Ideal.ofBits .bf16 0x0000#16 = (0 : EReal) := by
  simp [Ideal.ofBits, Ideal.ieee]

/-- The f32 word `0x00000000` denotes `0`. -/
theorem ofBits_f32_zero : Ideal.ofBits .f32 0x00000000#32 = (0 : EReal) := by
  simp [Ideal.ofBits, Ideal.ieee]

/-- The constant array of the bf16 word of one is `1` at every index. -/
theorem constant_bf16_one (s : Shape) (i : s.Idx) :
    (constant s .bf16 0x3F80#16 : FVec Ideal s .bf16) i = (1 : EReal) := ofBits_bf16_one

/-- The constant array of the f32 word of one is `1` at every index. -/
theorem constant_f32_one (s : Shape) (i : s.Idx) :
    (constant s .f32 0x3F800000#32 : FVec Ideal s .f32) i = (1 : EReal) := ofBits_f32_one

/-- The constant array of the bf16 word of zero is `0` at every index. -/
theorem constant_bf16_zero (s : Shape) (i : s.Idx) :
    (constant s .bf16 0x0000#16 : FVec Ideal s .bf16) i = (0 : EReal) := ofBits_bf16_zero

/-- The constant array of the f32 word of zero is `0` at every index. -/
theorem constant_f32_zero (s : Shape) (i : s.Idx) :
    (constant s .f32 0x00000000#32 : FVec Ideal s .f32) i = (0 : EReal) := ofBits_f32_zero

end Cert.LibLiterals
-- ==== Proof.Spec.lean ====
/-
  The contrastive loss on the extended reals, entry by entry.

  Two batches of 8192 rows are sent through one affine layer followed by the exponential linear unit; every pair of
  projected rows (p, q) gets the weight exp(2 · ⟨z1_p, z2_q⟩ / (|z1_p| · |z2_q|)); the weights are summed against a
  positive and a negative mask, and the loss is −log(s₊ / (s₊ + s₋)).
-/
import proofs.«112058_j47974784697102_1_alg».proof.Proof.LibDense
import proofs.«112058_j47974784697102_1_alg».proof.Proof.LibLiterals

noncomputable section

open scoped BigOperators

namespace Cert.Contrast

open Idealize.ShloMosaic Idealize.ShloMosaic.ValueIdx Cert.Dense

/-- The exponential linear unit: y for y > 0, exp y − 1 otherwise. -/
def elu (y : EReal) : EReal := Scalar.select (Ideal.cmp .ogt y 0) y (Ideal.exp y - 1)

/-- The unit as the vector unit spells it: a comparison with the zero word selecting between y and exp y minus the word of one. -/
theorem elu_words (y : EReal) :
    Scalar.select (Ideal.cmp .ogt y (Ideal.ofBits .f32 0x00000000#32)) y (Ideal.exp y - Ideal.ofBits .f32 0x3F800000#32) = elu y := by
  rw [Cert.LibLiterals.ofBits_f32_zero, Cert.LibLiterals.ofBits_f32_one]; rfl

/-- The unit as the host spells it: where y is not positive, one times (exp of y, itself guarded by the same comparison, minus one). -/
theorem elu_guarded (y : EReal) :
    Scalar.select (Ideal.cmp .ogt y (Ideal.ofBits .f32 0x00000000#32)) y
        (Ideal.ofBits .f32 0x3F800000#32 * (Ideal.exp (Scalar.select (Ideal.cmp .ogt y (Ideal.ofBits .f32 0x00000000#32)) (Ideal.ofBits .f32 0x00000000#32) y) - 1))
      = elu y := by
  rw [Cert.LibLiterals.ofBits_f32_zero, Cert.LibLiterals.ofBits_f32_one]
  unfold elu
  rcases BitVec.eq_zero_or_eq_one (Ideal.cmp .ogt y 0) with h | h
  · rw [h]; simp [Scalar.select]
  · rw [h]; simp [Scalar.select]

/-- The real number 2 read as an extended real is 2. -/
theorem coe_two : ((2 : ℝ) : EReal) = (2 : EReal) := by norm_cast

/-- The f32 word `0x40000000` denotes 2. -/
theorem ofBits_f32_two : Ideal.ofBits .f32 0x40000000#32 = (2 : EReal) := by
  have h : Ideal.ofBits .f32 0x40000000#32 = ((2 : ℝ) : EReal) := by
    simp [Ideal.ofBits, Ideal.ieee, -EReal.coe_mul]; norm_num
  rw [h, coe_two]

/-- Dividing by the f32 word of one half is doubling, on every extended real. -/
theorem div_half (x : EReal) : Ideal.div x (Ideal.ofBits .f32 0x3F000000#32) = x * 2 := by
  have h : Ideal.ofBits .f32 0x3F000000#32 = ((1 / 2 : ℝ) : EReal) := by
    simp [Ideal.ofBits, Ideal.ieee, -EReal.coe_mul]; norm_num
  have e : (1 / (1 / 2 : ℝ) : ℝ) = 2 := by norm_num
  rw [h, Ideal.div_coe (by norm_num : (1 / 2 : ℝ) ≠ 0), e, coe_two]

/-- A matrix with its two axes exchanged. -/
def tr {a b : ℕ} (W : Mat a b) : Mat b a := fun i => W (ix2 (i 1) (i 0))

/-- A row stored as a one-row matrix. -/
def row2 {n : ℕ} (b : Row n) : Mat 1 n := fun i => b (ix1 (i 1))

/-- The projection: the unit applied to the affine layer x · WT + b, the bias stored as a one-row matrix. -/
def proj {M : ℕ} (x : Mat M 256) (WT : Mat 256 256) (b2 : Mat 1 256) : Mat M 256 := fun i => elu (affine2 x WT b2 i)

/-- The Euclidean norm of row p. -/
def nrm {M : ℕ} (z : Mat M 256) (p : Fin M) : EReal := Ideal.sqrt (∑ k : Fin 256, z (ix2 p k) * z (ix2 p k))

/-- The weight of the pair (p, q): exp of twice the cosine of the two rows. -/
def sim {M N : ℕ} (z1 : Mat M 256) (z2 : Mat N 256) (p : Fin M) (q : Fin N) : EReal :=
  Ideal.exp (Ideal.div (∑ k : Fin 256, z1 (ix2 p k) * z2 (ix2 q k)) (nrm z1 p * nrm z2 q) * 2)

/-- The weights summed against a mask. -/
def total (z1 z2 : Mat 8192 256) (P : Mat 8192 8192) : EReal :=
  ∑ p : Fin 8192, ∑ q : Fin 8192, sim z1 z2 p q * P (ix2 p q)

/-- −log(s₊ / (s₊ + s₋)). -/
def loss (s1 s2 : EReal) : EReal := -(Ideal.log (Ideal.div s1 (s1 + s2)))

/-- The loss as a function of the six argument arrays. -/
def result (x1 x2 : Mat 8192 256) (pos neg : Mat 8192 8192) (W : Mat 256 256) (b : Row 256) : EReal :=
  loss (total (proj x1 (tr W) (row2 b)) (proj x2 (tr W) (row2 b)) pos)
       (total (proj x1 (tr W) (row2 b)) (proj x2 (tr W) (row2 b)) neg)

/-- The projection of a block of rows is the projection of the whole array at those rows. -/
theorem proj_rows {M M' : ℕ} (A : Mat M' 256) (blk : Mat M 256) (WT : Mat 256 256) (b2 : Mat 1 256) (ρ : Fin M → Fin M')
    (h : ∀ p k, blk (ix2 p k) = A (ix2 (ρ p) k)) (p : Fin M) (q : Fin 256) :
    proj blk WT b2 (ix2 p q) = proj A WT b2 (ix2 (ρ p) q) := by
  unfold proj
  rw [affine2_rows A blk WT b2 ρ h p q]

/-- The norm of a row of a block is the norm of that row of the whole array. -/
theorem nrm_rows {M M' : ℕ} (Z : Mat M' 256) (blk : Mat M 256) (ρ : Fin M → Fin M')
    (h : ∀ p k, blk (ix2 p k) = Z (ix2 (ρ p) k)) (p : Fin M) : nrm blk p = nrm Z (ρ p) := by
  unfold nrm
  exact congrArg Ideal.sqrt (Finset.sum_congr rfl fun k _ => by rw [h p k])

end Cert.Contrast

end
-- ==== Proof.LibRowStat.lean ====
/-
  The square of a row's sum minus the sum of its squares, and its total over the rows.

  For a matrix Z the row statistic at row p is (Σ_k Z(p,k))² − Σ_k Z(p,k)². The vector unit computes it on a block
  of rows by two lane sums kept as columns; the host computes it on the whole array by two sums over the second
  axis. Both are this function of the row. It depends on the row alone, so on a block of rows it is the statistic
  of the whole matrix at those rows. Its total over all rows is the same number whether the rows are kept as a
  one-column matrix and summed over both axes or kept as a vector and summed over its one axis.
-/
import proofs.«112058_j47974784697102_1_alg».proof.Proof.LibDense

noncomputable section

open scoped BigOperators

namespace Cert.Dense

open Idealize.ShloMosaic Idealize.ShloMosaic.ValueIdx

variable {M K : ℕ}

/-- The square of row p's sum minus the sum of row p's squares. -/
def cross (Z : Mat M K) (p : Fin M) : EReal :=
  (∑ k : Fin K, Z (ix2 p k)) * (∑ k : Fin K, Z (ix2 p k)) - ∑ k : Fin K, Z (ix2 p k) * Z (ix2 p k)

/-- The statistic of a block of rows is the statistic of the whole matrix at those rows. -/
theorem cross_rows {M' : ℕ} (A : Mat M' K) (blk : Mat M K) (ρ : Fin M → Fin M')
    (h : ∀ p k, blk (ix2 p k) = A (ix2 (ρ p) k)) (p : Fin M) : cross blk p = cross A (ρ p) := by
  unfold cross
  have h1 : (∑ k : Fin K, blk (ix2 p k)) = ∑ k : Fin K, A (ix2 (ρ p) k) := Finset.sum_congr rfl fun k _ => h p k
  have h2 : (∑ k : Fin K, blk (ix2 p k) * blk (ix2 p k)) = ∑ k : Fin K, A (ix2 (ρ p) k) * A (ix2 (ρ p) k) :=
    Finset.sum_congr rfl fun k _ => by rw [h p k]
  rw [h1, h2]

/-- A lane sum kept as a column, read at an entry: the sum of the row. -/
theorem laneSum_col_apply (v : FVec Ideal ⟨2, ![M, K]⟩ .f32)
    (hred : (⟨2, ![M, K]⟩ : Shape).Reduces [1] ⟨1, ![M]⟩) (hφ : FKind.Formats .f32)
    (hacc : (0x00000000#32 : BitVec 32) = FKind.add.neutral .f32 hφ)
    (hlift : ∀ (p : Fin M) (k : Fin K), hred.lift (ix1 p) k = ix2 p k)
    (hsc : (⟨1, ![M]⟩ : Shape).ShapeCasts ⟨2, ![M, 1]⟩) (p : Fin M) (q : Fin 1) :
    shapeCast ⟨2, ![M, 1]⟩ (multiReduction .add [1] ⟨1, ![M]⟩ v 0x00000000#32 hred hφ hacc) hsc (ix2 p q)
      = ∑ k : Fin K, v (ix2 p k) := by
  rw [shapeCast_apply _ hsc (ix2 p q) (ix1 p) (by
      rw [Shape.rowMajor_val_two, Shape.rowMajor_val_one]
      show p.val = p.val * 1 + q.val
      have := q.isLt
      omega)]
  rw [Ideal.multiReduction_add_single]
  exact Finset.sum_congr rfl fun k _ => by rw [hlift p k]

/-- The vector unit's form of the statistic on a block: entry (p, q) of the column is the statistic of row p. -/
theorem kernel_cross (z : FVec Ideal ⟨2, ![M, K]⟩ .f32)
    (hred : (⟨2, ![M, K]⟩ : Shape).Reduces [1] ⟨1, ![M]⟩) (hφ : FKind.Formats .f32)
    (hacc : (0x00000000#32 : BitVec 32) = FKind.add.neutral .f32 hφ)
    (hlift : ∀ (p : Fin M) (k : Fin K), hred.lift (ix1 p) k = ix2 p k)
    (hsc : (⟨1, ![M]⟩ : Shape).ShapeCasts ⟨2, ![M, 1]⟩) (p : Fin M) (q : Fin 1) :
    subf (mulf (shapeCast ⟨2, ![M, 1]⟩ (multiReduction .add [1] ⟨1, ![M]⟩ z 0x00000000#32 hred hφ hacc) hsc)
               (shapeCast ⟨2, ![M, 1]⟩ (multiReduction .add [1] ⟨1, ![M]⟩ z 0x00000000#32 hred hφ hacc) hsc))
         (shapeCast ⟨2, ![M, 1]⟩ (multiReduction .add [1] ⟨1, ![M]⟩ (mulf z z) 0x00000000#32 hred hφ hacc) hsc) (ix2 p q)
      = cross z p := by
  show shapeCast ⟨2, ![M, 1]⟩ (multiReduction .add [1] ⟨1, ![M]⟩ z 0x00000000#32 hred hφ hacc) hsc (ix2 p q)
        * shapeCast ⟨2, ![M, 1]⟩ (multiReduction .add [1] ⟨1, ![M]⟩ z 0x00000000#32 hred hφ hacc) hsc (ix2 p q)
        - shapeCast ⟨2, ![M, 1]⟩ (multiReduction .add [1] ⟨1, ![M]⟩ (mulf z z) 0x00000000#32 hred hφ hacc) hsc (ix2 p q)
      = cross z p
  rw [laneSum_col_apply z hred hφ hacc hlift hsc p q, laneSum_col_apply (mulf z z) hred hφ hacc hlift hsc p q]
  rfl

/-- The host's sum over the second axis from the zero word, read at a row: the sum of the row. -/
theorem hostRowSum_apply (v : FVec Ideal ⟨2, ![M, K]⟩ .f32)
    (hrt : (⟨2, ![M, K]⟩ : Shape).ReducesTo [1] ⟨1, ![M]⟩) (hS : 0 < (⟨0, ![]⟩ : Shape).numel)
    (hred : (⟨2, ![M, K]⟩ : Shape).Reduces [1] ⟨1, ![M]⟩)
    (hlift : ∀ (p : Fin M) (k : Fin K), hred.lift (ix1 p) k = ix2 p k) (p : Fin M) :
    Host.reduceAdd v (constant (F := Ideal) ⟨0, ![]⟩ .f32 0x00000000#32) hrt hS (ix1 p) = ∑ k : Fin K, v (ix2 p k) := by
  simp only [Host.reduceAdd, Ideal.hostReduceAdd_def]
  rw [Ideal.hostReduceAdd_single hrt hred]
  show Ideal.ofBits .f32 0x00000000#32 + ∑ k : Fin K, v (hred.lift (ix1 p) k) = _
  rw [Ideal.ofBits_zero_f32, zero_add]
  exact Finset.sum_congr rfl fun k _ => by rw [hlift p k]

/-- The host's form of the statistic on the whole array: entry p of the vector is the statistic of row p. -/
theorem host_cross (z : FVec Ideal ⟨2, ![M, K]⟩ .f32)
    (hrt : (⟨2, ![M, K]⟩ : Shape).ReducesTo [1] ⟨1, ![M]⟩) (hS : 0 < (⟨0, ![]⟩ : Shape).numel)
    (hred : (⟨2, ![M, K]⟩ : Shape).Reduces [1] ⟨1, ![M]⟩)
    (hlift : ∀ (p : Fin M) (k : Fin K), hred.lift (ix1 p) k = ix2 p k) (p : Fin M) :
    subf (mulf (Host.reduceAdd z (constant (F := Ideal) ⟨0, ![]⟩ .f32 0x00000000#32) hrt hS)
               (Host.reduceAdd z (constant (F := Ideal) ⟨0, ![]⟩ .f32 0x00000000#32) hrt hS))
         (Host.reduceAdd (mulf z z) (constant (F := Ideal) ⟨0, ![]⟩ .f32 0x00000000#32) hrt hS) (ix1 p)
      = cross z p := by
  show Host.reduceAdd z (constant (F := Ideal) ⟨0, ![]⟩ .f32 0x00000000#32) hrt hS (ix1 p)
        * Host.reduceAdd z (constant (F := Ideal) ⟨0, ![]⟩ .f32 0x00000000#32) hrt hS (ix1 p)
        - Host.reduceAdd (mulf z z) (constant (F := Ideal) ⟨0, ![]⟩ .f32 0x00000000#32) hrt hS (ix1 p)
      = cross z p
  rw [hostRowSum_apply z hrt hS hred hlift p, hostRowSum_apply (mulf z z) hrt hS hred hlift p]
  rfl

/-! ## Totals over the rows -/

/-- A rank-1 index set is its one coordinate's range. -/
def idxEquiv1 {n : ℕ} : (⟨1, ![n]⟩ : Shape).Idx ≃ Fin n where
  toFun i := i 0
  invFun p := ix1 p
  left_inv i := (eq_ix1 i).symm
  right_inv _ := rfl

/-- A sum over a vector's indices is the sum over its coordinate. -/
theorem sum_idx1 {n : ℕ} (f : (⟨1, ![n]⟩ : Shape).Idx → EReal) : ∑ i, f i = ∑ p : Fin n, f (ix1 p) := by
  rw [← Equiv.sum_comp (idxEquiv1 (n := n)).symm f]
  rfl

/-- A sum over a one-column matrix's indices is the sum over its rows. -/
theorem sum_idx_col {n : ℕ} (f : (⟨2, ![n, 1]⟩ : Shape).Idx → EReal) : ∑ i, f i = ∑ p : Fin n, f (ix2 p (0 : Fin 1)) := by
  rw [sum_idx2]
  exact Finset.sum_congr rfl fun p _ => Fin.sum_univ_one _

/-- The host's sum of a one-column matrix over both axes, from the zero word: the sum over the rows. -/
theorem hostTotal_col (v : FVec Ideal ⟨2, ![M, 1]⟩ .f32) (hrt : (⟨2, ![M, 1]⟩ : Shape).ReducesTo [0, 1] ⟨0, ![]⟩)
    (hS : 0 < (⟨0, ![]⟩ : Shape).numel) (j : (⟨0, ![]⟩ : Shape).Idx) :
    Host.reduceAdd v (constant (F := Ideal) ⟨0, ![]⟩ .f32 0x00000000#32) hrt hS j = ∑ p : Fin M, v (ix2 p (0 : Fin 1)) := by
  simp only [Host.reduceAdd, Ideal.hostReduceAdd_def]
  rw [Ideal.hostReduceAdd_total hrt (fun b => b.elim0)]
  show Ideal.ofBits .f32 0x00000000#32 + ∑ i, v i = _
  rw [Ideal.ofBits_zero_f32, zero_add, sum_idx_col]

/-- The host's sum of a vector over its axis, from the zero word: the sum over the entries. -/
theorem hostTotal_vec (v : FVec Ideal ⟨1, ![M]⟩ .f32) (hrt : (⟨1, ![M]⟩ : Shape).ReducesTo [0] ⟨0, ![]⟩)
    (hS : 0 < (⟨0, ![]⟩ : Shape).numel) (j : (⟨0, ![]⟩ : Shape).Idx) :
    Host.reduceAdd v (constant (F := Ideal) ⟨0, ![]⟩ .f32 0x00000000#32) hrt hS j = ∑ p : Fin M, v (ix1 p) := by
  simp only [Host.reduceAdd, Ideal.hostReduceAdd_def]
  rw [Ideal.hostReduceAdd_total hrt (fun b => b.elim0)]
  show Ideal.ofBits .f32 0x00000000#32 + ∑ i, v i = _
  rw [Ideal.ofBits_zero_f32, zero_add, sum_idx1]

end Cert.Dense

end
-- ==== Proof.LibColumn.lean ====
/-
  A vector laid out as a column, and scalars broadcast, read at an entry.

  A vector of n entries becomes a 1×n matrix by a cast, and an n×1 matrix either by a cast (row-major positions agree: entry r of the vector sits at
  (r, 0)) or by a broadcast along the new axis; a one-entry vector becomes a scalar by a cast; a scalar broadcast to any
  shape is that scalar at every entry; a one-entry vector broadcast over n entries is its one entry everywhere.
-/
import Idealize.ShloMosaic.Lib.ValueIdx
import Idealize.ShloMosaic.Lib.Pipeline.Value

noncomputable section

namespace Cert.Layout

open Idealize.ShloMosaic Idealize.ShloMosaic.ValueIdx

variable {α : Type} {n : ℕ}

/-- The one index of a rank-0 shape is at row-major position 0. -/
theorem rowMajor_val_rank0 (d : Fin 0 → Nat) (i : (⟨0, d⟩ : Shape).Idx) : ((⟨0, d⟩ : Shape).rowMajor i).val = 0 :=
  Shape.rowMajorPi_zero d i

/-- A vector cast to a column, read at (r, q): the vector's entry r. -/
theorem cast_vec_col_apply (v : (⟨1, ![n]⟩ : Shape).Idx → α) (h : (⟨1, ![n]⟩ : Shape).ShapeCasts ⟨2, ![n, 1]⟩) (r : Fin n) (q : Fin 1) :
    shapeCast ⟨2, ![n, 1]⟩ v h (ix2 r q) = v (ix1 r) :=
  shapeCast_apply v h (ix2 r q) (ix1 r) (by
    rw [Shape.rowMajor_val_two, Shape.rowMajor_val_one]
    show r.val = r.val * 1 + q.val
    have := q.isLt
    omega)

/-- A vector cast to a one-row matrix, read at (0, q): the vector's entry q. -/
theorem cast_vec_row_apply (v : (⟨1, ![n]⟩ : Shape).Idx → α) (h : (⟨1, ![n]⟩ : Shape).ShapeCasts ⟨2, ![1, n]⟩) (q : Fin n) :
    shapeCast ⟨2, ![1, n]⟩ v h (ix2 (0 : Fin 1) q) = v (ix1 q) :=
  shapeCast_apply v h (ix2 (0 : Fin 1) q) (ix1 q) (by
    rw [Shape.rowMajor_val_two, Shape.rowMajor_val_one]
    show q.val = (0 : Fin 1).val * n + q.val
    simp)

/-- A one-entry vector cast to a scalar: its one entry. -/
theorem cast_one_scalar_apply (v : (⟨1, ![1]⟩ : Shape).Idx → α) (h : (⟨1, ![1]⟩ : Shape).ShapeCasts ⟨0, ![]⟩) (j : (⟨0, ![]⟩ : Shape).Idx) :
    shapeCast ⟨0, ![]⟩ v h j = v (ix1 (0 : Fin 1)) :=
  shapeCast_apply v h j (ix1 (0 : Fin 1)) (by
    rw [Shape.rowMajor_val_one, rowMajor_val_rank0]
    rfl)

/-- A scalar broadcast to a shape, read anywhere: the scalar. -/
theorem bcast_scalar_apply {s : Shape} (v : (⟨0, ![]⟩ : Shape).Idx → α) (h : (⟨0, ![]⟩ : Shape).BroadcastsInDim s ![]) (j : s.Idx) :
    broadcastInDim s ![] h v j = v ix0 :=
  broadcastInDim_apply ![] h v j ix0 (fun ax => ax.elim0)

/-- A one-entry vector broadcast over n entries, read at r: its one entry. -/
theorem bcast_one_vec_apply (v : (⟨1, ![1]⟩ : Shape).Idx → α) (h : (⟨1, ![1]⟩ : Shape).BroadcastsInDim ⟨1, ![n]⟩ ![0]) (r : Fin n) :
    broadcastInDim ⟨1, ![n]⟩ ![0] h v (ix1 r) = v (ix1 (0 : Fin 1)) :=
  broadcastInDim_apply ![0] h v (ix1 r) (ix1 (0 : Fin 1)) (fun ax => by
    match ax with
    | ⟨0, _⟩ =>
      show (0 : ℕ) = if (1 : ℕ) = 1 then 0 else r.val
      rfl)

/-- A vector broadcast to a column along a new second axis, read at (r, q): the vector's entry r. -/
theorem bcast_vec_col_apply (v : (⟨1, ![n]⟩ : Shape).Idx → α) (h : (⟨1, ![n]⟩ : Shape).BroadcastsInDim ⟨2, ![n, 1]⟩ ![0]) (r : Fin n) (q : Fin 1) :
    broadcastInDim ⟨2, ![n, 1]⟩ ![0] h v (ix2 r q) = v (ix1 r) :=
  broadcastInDim_apply ![0] h v (ix2 r q) (ix1 r) (fun ax => by
    match ax with
    | ⟨0, _⟩ =>
      show r.val = if n = 1 then 0 else r.val
      split
      · have := r.isLt; omega
      · rfl)

end Cert.Layout

end
-- ==== Proof.LibBlockSum.lean ====
/-
  Regrouping a sum over `Fin (a * b)` as `a` blocks of `b` consecutive terms.
-/
import Idealize.ShloMosaic.PureOps.Ideal

namespace Cert.LibBlockSum

/-- The position `k * b + j` of the `j`-th entry of block `k` lies below `a * b`. -/
theorem block_lt {a b : Nat} (k : Fin a) (j : Fin b) : k.val * b + j.val < a * b := by
  have hk : k.val + 1 ≤ a := k.isLt
  have hj : j.val < b := j.isLt
  calc k.val * b + j.val < k.val * b + b := by omega
    _ = (k.val + 1) * b := by ring
    _ ≤ a * b := Nat.mul_le_mul_right b hk

/-- A sum over `Fin (a * b)` is the sum over the `a` blocks of the sums of the `b` consecutive
terms of each block: `∑ n, f n = ∑ k, ∑ j, f (k * b + j)`. -/
theorem sum_blocks {M : Type*} [AddCommMonoid M] (a b : Nat) (f : Fin (a * b) → M) :
    ∑ n : Fin (a * b), f n
      = ∑ k : Fin a, ∑ j : Fin b, f ⟨k.val * b + j.val, block_lt k j⟩ := by
  -- the bijection (k, j) ↦ j + b * k of Mathlib, then the sum over a product as a double sum
  rw [← (finProdFinEquiv : Fin a × Fin b ≃ Fin (a * b)).sum_comp f, Fintype.sum_prod_type]
  refine Finset.sum_congr rfl (fun k _ => Finset.sum_congr rfl (fun j _ => ?_))
  congr 1
  apply Fin.ext
  simp [finProdFinEquiv, Nat.mul_comm, Nat.add_comm]

/-- The same regrouping when the length is given as a number `N` known to equal `a * b`. -/
theorem sum_blocks_of_eq {M : Type*} [AddCommMonoid M] {N : Nat} (a b : Nat) (h : a * b = N)
    (f : Fin N → M) :
    ∑ n : Fin N, f n
      = ∑ k : Fin a, ∑ j : Fin b, f ⟨k.val * b + j.val, h ▸ block_lt k j⟩ := by
  subst h
  exact sum_blocks a b f

/-- The instance used for 16384 nodes read as 4 blocks of 4096: a sum of extended reals over
`Fin 16384` is the sum over the 4 blocks of the sums of the 4096 terms of each block. -/
theorem sum_16384_blocks (g : Fin 16384 → EReal) :
    ∑ n : Fin 16384, g n
      = ∑ k : Fin 4, ∑ j : Fin 4096, g ⟨k.val * 4096 + j.val, by omega⟩ := by
  exact sum_blocks_of_eq (N := 16384) 4 4096 (by norm_num) g

end Cert.LibBlockSum
-- ==== Proof.Tile.lean ====
/-
  The weighted sum over all pairs of rows, cut into 64 square tiles of 1024 × 1024 pairs.

  The weight of a pair (p, q) is exp(2 · ⟨z1_p, z2_q⟩ / (n1_p · n2_q)) with the norms given as a column and a row. The sum of
  weight × mask over all 8192 × 8192 pairs is the sum, over the tiles (a, b) of an 8 × 8 grid taken row by row, of the
  sums over the tile's pairs (a · 1024 + r, b · 1024 + c): a regrouping of a finite sum in a commutative monoid. On one
  tile the vector unit forms the products of rows by a matrix product contracted over both operands' second axis,
  divides by the outer product of the norms, and sums first along the rows and then down the column of row sums.
-/
import proofs.«112058_j47974784697102_1_alg».proof.Proof.Spec
import proofs.«112058_j47974784697102_1_alg».proof.Proof.LibRowStat
import proofs.«112058_j47974784697102_1_alg».proof.Proof.LibColumn
import proofs.«112058_j47974784697102_1_alg».proof.Proof.LibBlockSum

noncomputable section

open scoped BigOperators

namespace Cert.Contrast

open Idealize.ShloMosaic Idealize.ShloMosaic.ValueIdx Cert.Dense

variable {M K N : ℕ}

/-! ## The product of rows: A · Bᵀ -/

/-- Entry (r, c) is the sum over k of A(r, k) · B(c, k). -/
def mmT (A : Mat M K) (B : Mat N K) : Mat M N := fun i => ∑ k : Fin K, A (ix2 (i 0) k) * B (ix2 (i 1) k)

/-- The sum over the one contracted axis, the right operand contracted on its second axis, is the sum over `Fin K`. -/
theorem nt_sum (a : Mat M K) (b : Mat N K) (j : (⟨2, ![M, N]⟩ : Shape).Idx) :
    ∑ k : (DotDims.transposedRhs M K N).contr.Idx, a ((DotDims.transposedRhs M K N).lhsIdx j k) * b ((DotDims.transposedRhs M K N).rhsIdx j k)
      = mmT a b j := by
  unfold mmT
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx j ((contrEquiv1 (DotDims.transposedRhs M K N) K rfl rfl).symm k) = ix2 (j 0) k :=
    funext fun a => Fin.ext (by
      match a with
      | ⟨0, _⟩ => rfl
      | ⟨1, _⟩ => exact hk)
  have er : (DotDims.transposedRhs M K N).rhsIdx j ((contrEquiv1 (DotDims.transposedRhs M K N) K rfl rfl).symm k) = ix2 (j 1) k :=
    funext fun a => Fin.ext (by
      match a with
      | ⟨0, _⟩ => rfl
      | ⟨1, _⟩ => exact hk)
  exact congr (congrArg _ (congrArg a el)) (congrArg b er)

/-- The vector unit's product of rows into a zero accumulator, entry by entry. -/
theorem matmul_nt_zero {φ₁ φ₂ : FTy} (prec : Option ContractPrecision) (a : FVec Ideal ⟨2, ![M, K]⟩ φ₁) (b : FVec Ideal ⟨2, ![N, K]⟩ φ₂) :
    matmul (DotDims.transposedRhs M K N) prec a b (constant (F := Ideal) ⟨2, ![M, N]⟩ .f32 0x00000000#32) = mmT a b := by
  funext j
  simp only [matmul]
  rw [Ideal.matmul_constant_zero_apply]
  exact nt_sum a b j

/-! ## A column broadcast over many, and the sum down a column -/

/-- An `[a, 1]` array broadcast to `[a, b]` reads, at `(p, c)`, the operand's one column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-column matrix summed down its column and kept as a 1 × 1 matrix: the sum of the column. -/
theorem colSum_apply (v : FVec Ideal ⟨2, ![M, 1]⟩ .f32)
    (hred : (⟨2, ![M, 1]⟩ : Shape).Reduces [0] ⟨1, ![1]⟩) (hφ : FKind.Formats .f32)
    (hacc : (0x00000000#32 : BitVec 32) = FKind.add.neutral .f32 hφ)
    (hlift : ∀ (r : Fin M), hred.lift (ix1 (0 : Fin 1)) r = ix2 r (0 : Fin 1))
    (hsc : (⟨1, ![1]⟩ : Shape).ShapeCasts ⟨2, ![1, 1]⟩) (p q : Fin 1) :
    shapeCast ⟨2, ![1, 1]⟩ (multiReduction .add [0] ⟨1, ![1]⟩ v 0x00000000#32 hred hφ hacc) hsc (ix2 p q)
      = ∑ r : Fin M, v (ix2 r (0 : Fin 1)) := by
  rw [Cert.Layout.cast_vec_col_apply _ hsc p q]
  obtain rfl : p = 0 := Subsingleton.elim _ _
  rw [Ideal.multiReduction_add_single]
  exact Finset.sum_congr rfl fun r _ => by rw [hlift r]

/-! ## The weights and their sum against a mask -/

/-- The weight of the pair (p, q), the norms given as a column and a row. -/
def wgt (z1 : Mat M 256) (z2 : Mat N 256) (n1 : Mat M 1) (n2 : Mat 1 N) (p : Fin M) (q : Fin N) : EReal :=
  Ideal.exp (Ideal.div (∑ k : Fin 256, z1 (ix2 p k) * z2 (ix2 q k)) (n1 (ix2 p (0 : Fin 1)) * n2 (ix2 (0 : Fin 1) q)) * 2)

/-- The weights summed against a mask. -/
def wsum (z1 : Mat M 256) (z2 : Mat N 256) (n1 : Mat M 1) (n2 : Mat 1 N) (P : Mat M N) : EReal :=
  ∑ p : Fin M, ∑ q : Fin N, wgt z1 z2 n1 n2 p q * P (ix2 p q)

/-- With the norms of the rows in the column and the row, this is the specification's total. -/
theorem wsum_eq_total (z1 z2 : Mat 8192 256) (n1 : Mat 8192 1) (n2 : Mat 1 8192) (P : Mat 8192 8192)
    (h1 : ∀ p, n1 (ix2 p (0 : Fin 1)) = nrm z1 p) (h2 : ∀ q, n2 (ix2 (0 : Fin 1) q) = nrm z2 q) :
    wsum z1 z2 n1 n2 P = total z1 z2 P := by
  unfold wsum total wgt sim
  exact Finset.sum_congr rfl fun p _ => Finset.sum_congr rfl fun q _ => by rw [h1 p, h2 q]

/-! ## The tiles -/

/-- Row `r` of block `a` of eight blocks of 1024 rows. -/
def at8 (a : ℕ) (r : Fin 1024) : Fin 8192 :=
  ⟨(a % 8) * 1024 + r.val, by have := r.isLt; have := Nat.mod_lt a (by norm_num : 8 > 0); omega⟩

theorem at8_val (a : ℕ) (r : Fin 1024) (ha : a < 8) : (at8 a r).val = a * 1024 + r.val := by
  show (a % 8) * 1024 + r.val = _
  rw [Nat.mod_eq_of_lt ha]

/-- A sum over 8192 rows is the sum over the eight blocks of the sums over each block's 1024 rows. -/
theorem sum_rows8 (g : Fin 8192 → EReal) : ∑ p, g p = ∑ a : Fin 8, ∑ r : Fin 1024, g (at8 a.val r) := by
  rw [Cert.LibBlockSum.sum_blocks_of_eq (N := 8192) 8 1024 (by norm_num) g]
  refine Finset.sum_congr rfl fun a _ => Finset.sum_congr rfl fun r _ => congrArg g (Fin.ext ?_)
  rw [at8_val a.val r a.isLt]

/-- A sum over all pairs of rows is the sum over the 64 tiles, taken row by row, of the sums over each tile's pairs. -/
theorem sum_tiles (f : Fin 8192 → Fin 8192 → EReal) :
    ∑ p, ∑ q, f p q = ∑ t : Fin 64, ∑ r : Fin 1024, ∑ c : Fin 1024, f (at8 (t.val / 8) r) (at8 (t.val % 8) c) := by
  rw [sum_rows8]
  rw [Cert.LibBlockSum.sum_blocks_of_eq (N := 64) 8 8 (by norm_num)
    (fun t : Fin 64 => ∑ r : Fin 1024, ∑ c : Fin 1024, f (at8 (t.val / 8) r) (at8 (t.val % 8) c))]
  refine Finset.sum_congr rfl fun a _ => ?_
  have e : ∀ r : Fin 1024, ∑ q, f (at8 a.val r) q = ∑ b : Fin 8, ∑ c : Fin 1024, f (at8 a.val r) (at8 b.val c) :=
    fun r => sum_rows8 _
  rw [Finset.sum_congr rfl fun r _ => e r, Finset.sum_comm]
  refine Finset.sum_congr rfl fun b _ => ?_
  have ha : (a.val * 8 + b.val) / 8 = a.val := by have := b.isLt; omega
  have hb : (a.val * 8 + b.val) % 8 = b.val := by have := b.isLt; omega
  show _ = ∑ r : Fin 1024, ∑ c : Fin 1024, f (at8 ((a.val * 8 + b.val) / 8) r) (at8 ((a.val * 8 + b.val) % 8) c)
  rw [ha, hb]

/-- The sum over tile `t`'s pairs of weight × mask, read off the whole arrays. -/
def tileAt (z1 z2 : Mat 8192 256) (n1 : Mat 8192 1) (n2 : Mat 1 8192) (P : Mat 8192 8192) (t : ℕ) : EReal :=
  ∑ r : Fin 1024, ∑ c : Fin 1024,
    wgt z1 z2 n1 n2 (at8 (t / 8) r) (at8 (t % 8) c) * P (ix2 (at8 (t / 8) r) (at8 (t % 8) c))

/-- The weighted sum of the blocks a tile reads is that tile's sum. -/
theorem wsum_block (z1 z2 : Mat 8192 256) (n1 : Mat 8192 1) (n2 : Mat 1 8192) (P : Mat 8192 8192) (t : ℕ)
    (x0 x1 : Mat 1024 256) (x2 : Mat 1024 1) (x3 : Mat 1 1024) (x4 : Mat 1024 1024)
    (h0 : ∀ r k, x0 (ix2 r k) = z1 (ix2 (at8 (t / 8) r) k)) (h1 : ∀ c k, x1 (ix2 c k) = z2 (ix2 (at8 (t % 8) c) k))
    (h2 : ∀ r, x2 (ix2 r (0 : Fin 1)) = n1 (ix2 (at8 (t / 8) r) (0 : Fin 1)))
    (h3 : ∀ c, x3 (ix2 (0 : Fin 1) c) = n2 (ix2 (0 : Fin 1) (at8 (t % 8) c)))
    (h4 : ∀ r c, x4 (ix2 r c) = P (ix2 (at8 (t / 8) r) (at8 (t % 8) c))) :
    wsum x0 x1 x2 x3 x4 = tileAt z1 z2 n1 n2 P t := by
  unfold wsum tileAt wgt
  refine Finset.sum_congr rfl fun r _ => Finset.sum_congr rfl fun c _ => ?_
  rw [h2 r, h3 c, h4 r c, Finset.sum_congr rfl fun k _ => by rw [h0 r k, h1 c k]]

/-- The sum over all pairs is the sum of the 64 tiles' sums. -/
theorem wsum_tiles (z1 z2 : Mat 8192 256) (n1 : Mat 8192 1) (n2 : Mat 1 8192) (P : Mat 8192 8192) :
    wsum z1 z2 n1 n2 P = ∑ t ∈ Finset.range 64, tileAt z1 z2 n1 n2 P t := by
  unfold wsum
  rw [sum_tiles (fun p q => wgt z1 z2 n1 n2 p q * P (ix2 p q)), ← Fin.sum_univ_eq_sum_range (fun t => tileAt z1 z2 n1 n2 P t) 64]
  rfl

end Cert.Contrast

end
-- ==== Proof.Body2.lean ====
/-
  What one grid point of the third launch leaves in its two running sums.

  At a point the body forms, for its tile of 1024 × 1024 pairs of rows, the weights exp(2 · ⟨z1_r, z2_c⟩ / (n1_r · n2_c)),
  multiplies them by the positive and by the negative mask, sums each product over the tile, and adds the two sums to the
  two 1 × 1 accumulators — which the first point has just reset to zero, and every later point finds as the point before
  left them. So after a point each accumulator holds what it held (zero at the first point) plus the tile's sum.
-/
import proofs.«112058_j47974784697102_1_alg».proof.Proof.Gen.KernelIdeal.Frame
import proofs.«112058_j47974784697102_1_alg».proof.Proof.Tile
import Idealize.ShloMosaic.Lib.Pipeline.Value
import Idealize.ShloMosaic.Lib.Tactic

noncomputable section

namespace Cert.KernelIdeal.Acc

open Idealize.ShloMosaic Idealize.ShloMosaic.TcCoe Idealize.ShloMosaic.ValueIdx Idealize.SL.Sem
open Cert.KernelIdeal Cert.KernelIdeal.Gen

section AnyValues
variable {F : FTy → Type} [FloatOps F]

theorem hz : (![0, 0] : Fin 2 → Nat) = fun _ => 0 := funext fun a => by fin_cases a <;> rfl

/-! ### A later point: each accumulator's one covering store is the old contents plus the tile's sum -/

theorem out_B_6 (c : Dev nD) (i : grid2.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1 .f32) (harg8 : arg8.IsWhole) (arg9 : Memref sig .tc .vmem S1x1 .f32) (harg9 : arg9.IsWhole) (hc : ¬cond2_0 i) (x0 : Vec F S1024x256 .bf16) (x1 : Vec F S1024x256 .bf16) (x2 : Vec F S1024x1 .f32) (x3 : Vec F S1x1024 .f32) (x4 : Vec F S1024x1024 .f32) (x5 : Vec F S1024x1024 .f32) (xo6 xo7 : Vec F S1x1 .f32) :
    out2_B_6 c i arg2 harg2 arg3 harg3 arg4 harg4 arg5 harg5 arg6 harg6 arg7 harg7 arg8 harg8 arg9 harg9 hc x0 x1 x2 x3 x4 x5 xo6 xo7 = k2_pay1 (k2_pay6 x0 x1 x2 x3 x4) xo6 := by
  unfold out2_B_6
  rw [View.read_writes_eq_canon _ _ _ (cover2_B_6 c i arg2 harg2 arg3 harg3 arg4 harg4 arg5 harg5 arg6 harg6 arg7 harg7 arg8 harg8 arg9 harg9 hc x0 x1 x2 x3 x4 x5 xo6 xo7)]
  unfold kernelRun2_B
  dsimp only
  sl_unfold_words
  rw [View.canon_unit_zero hz]
  simp only [View.readAt_eq_ld, harg2.read_unread, harg3.read_unread, harg4.read_unread, harg5.read_unread, harg6.read_unread,
    harg7.read_unread, harg8.read_unread, harg9.read_unread, View.ld_unit_zero (S := S1024x256) hz, View.ld_unit_zero (S := S1024x1) hz,
    View.ld_unit_zero (S := S1x1024) hz, View.ld_unit_zero (S := S1024x1024) hz, View.ld_unit_zero (S := S1x1) hz]

theorem out_B_7 (c : Dev nD) (i : grid2.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1 .f32) (harg8 : arg8.IsWhole) (arg9 : Memref sig .tc .vmem S1x1 .f32) (harg9 : arg9.IsWhole) (hc : ¬cond2_0 i) (x0 : Vec F S1024x256 .bf16) (x1 : Vec F S1024x256 .bf16) (x2 : Vec F S1024x1 .f32) (x3 : Vec F S1x1024 .f32) (x4 : Vec F S1024x1024 .f32) (x5 : Vec F S1024x1024 .f32) (xo6 xo7 : Vec F S1x1 .f32) :
    out2_B_7 c i arg2 harg2 arg3 harg3 arg4 harg4 arg5 harg5 arg6 harg6 arg7 harg7 arg8 harg8 arg9 harg9 hc x0 x1 x2 x3 x4 x5 xo6 xo7 = k2_pay2 (k2_pay7 x0 x1 x2 x3 x5) xo7 := by
  unfold out2_B_7
  rw [View.read_writes_eq_canon _ _ _ (cover2_B_7 c i arg2 harg2 arg3 harg3 arg4 harg4 arg5 harg5 arg6 harg6 arg7 harg7 arg8 harg8 arg9 harg9 hc x0 x1 x2 x3 x4 x5 xo6 xo7)]
  unfold kernelRun2_B
  dsimp only
  sl_unfold_words
  rw [View.canon_unit_zero hz]
  simp only [View.readAt_eq_ld, harg2.read_unread, harg3.read_unread, harg4.read_unread, harg5.read_unread, harg6.read_unread,
    harg7.read_unread, harg8.read_unread, harg9.read_unread, View.ld_unit_zero (S := S1024x256) hz, View.ld_unit_zero (S := S1024x1) hz,
    View.ld_unit_zero (S := S1x1024) hz, View.ld_unit_zero (S := S1024x1024) hz, View.ld_unit_zero (S := S1x1) hz]

/-! ### The first point: the zero block is stored, read back, and the tile's sum added to it -/

theorem out_A_6 (c : Dev nD) (i : grid2.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1 .f32) (harg8 : arg8.IsWhole) (arg9 : Memref sig .tc .vmem S1x1 .f32) (harg9 : arg9.IsWhole) (hc : cond2_0 i) (x0 : Vec F S1024x256 .bf16) (x1 : Vec F S1024x256 .bf16) (x2 : Vec F S1024x1 .f32) (x3 : Vec F S1x1024 .f32) (x4 : Vec F S1024x1024 .f32) (x5 : Vec F S1024x1024 .f32) :
    out2_A_6 c i arg2 harg2 arg3 harg3 arg4 harg4 arg5 harg5 arg6 harg6 arg7 harg7 arg8 harg8 arg9 harg9 hc x0 x1 x2 x3 x4 x5 = k2_pay1 (k2_pay6 x0 x1 x2 x3 x4) k2_pay3 := by
  unfold out2_A_6
  rw [View.read_writes_eq_canon _ _ _ (cover2_A_6 c i arg2 harg2 arg3 harg3 arg4 harg4 arg5 harg5 arg6 harg6 arg7 harg7 arg8 harg8 arg9 harg9 hc x0 x1 x2 x3 x4 x5)]
  unfold kernelRun2_A
  dsimp only
  sl_unfold_words
  rw [View.canon_cons_unit_zero (S := S1x1) hz, View.readCov_unit_zero (S := S1x1) _ hz]
  simp only [View.readAt_eq_ld, harg2.read_unread, harg3.read_unread, harg4.read_unread, harg5.read_unread, harg6.read_unread,
    harg7.read_unread, View.ld_unit_zero (S := S1024x256) hz, View.ld_unit_zero (S := S1024x1) hz,
    View.ld_unit_zero (S := S1x1024) hz, View.ld_unit_zero (S := S1024x1024) hz, View.ld_unit_zero (S := S1x1) hz]

theorem out_A_7 (c : Dev nD) (i : grid2.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1 .f32) (harg8 : arg8.IsWhole) (arg9 : Memref sig .tc .vmem S1x1 .f32) (harg9 : arg9.IsWhole) (hc : cond2_0 i) (x0 : Vec F S1024x256 .bf16) (x1 : Vec F S1024x256 .bf16) (x2 : Vec F S1024x1 .f32) (x3 : Vec F S1x1024 .f32) (x4 : Vec F S1024x1024 .f32) (x5 : Vec F S1024x1024 .f32) :
    out2_A_7 c i arg2 harg2 arg3 harg3 arg4 harg4 arg5 harg5 arg6 harg6 arg7 harg7 arg8 harg8 arg9 harg9 hc x0 x1 x2 x3 x4 x5 = k2_pay2 (k2_pay7 x0 x1 x2 x3 x5) k2_pay4 := by
  unfold out2_A_7
  rw [View.read_writes_eq_canon _ _ _ (cover2_A_7 c i arg2 harg2 arg3 harg3 arg4 harg4 arg5 harg5 arg6 harg6 arg7 harg7 arg8 harg8 arg9 harg9 hc x0 x1 x2 x3 x4 x5)]
  unfold kernelRun2_A
  dsimp only
  sl_unfold_words
  rw [View.canon_cons_unit_zero (S := S1x1) hz, View.readCov_unit_zero (S := S1x1) _ hz]
  simp only [View.readAt_eq_ld, harg2.read_unread, harg3.read_unread, harg4.read_unread, harg5.read_unread, harg6.read_unread,
    harg7.read_unread, View.ld_unit_zero (S := S1024x256) hz, View.ld_unit_zero (S := S1024x1) hz,
    View.ld_unit_zero (S := S1x1024) hz, View.ld_unit_zero (S := S1024x1024) hz, View.ld_unit_zero (S := S1x1) hz]

end AnyValues

/-! ## The sums on the extended reals -/

/-- The weight the body forms at the pair (r, c) of its tile. -/
theorem weight_apply (x0 x1 : Vec Ideal S1024x256 .bf16) (x2 : Vec Ideal S1024x1 .f32) (x3 : Vec Ideal S1x1024 .f32) (r c : Fin 1024) :
    k2_pay5 (F := Ideal) x0 x1 x2 x3 (ix2 r c) = Cert.Contrast.wgt x0 x1 x2 x3 r c := by
  unfold k2_pay5
  simp only [shapeCast_self]
  show Ideal.exp (Ideal.div (matmul (DotDims.transposedRhs 1024 256 1024) none x0 x1 (constant (F := Ideal) S1024x1024 .f32 0x00000000#32) (ix2 r c))
      (broadcastTo S1024x1024 x2 broadcasts_S1024x1_S1024x1024 (ix2 r c) * broadcastTo S1024x1024 x3 broadcasts_S1x1024_S1024x1024 (ix2 r c))
      * Ideal.ofBits .f32 0x40000000#32) = _
  rw [Cert.Contrast.matmul_nt_zero, Cert.Contrast.broadcastTo_a1_ab_apply, broadcastTo_1b_ab_apply, Cert.Contrast.ofBits_f32_two]
  rfl

/-- A mask's tile sum: the weights times the mask's block, summed along the rows and then down the column. -/
theorem tileSum_apply (x0 x1 : Vec Ideal S1024x256 .bf16) (x2 : Vec Ideal S1024x1 .f32) (x3 : Vec Ideal S1x1024 .f32)
    (x4 : Vec Ideal S1024x1024 .f32) (p q : Fin 1) :
    shapeCast S1x1 (multiReduction .add [0] S1 (shapeCast S1024x1 (multiReduction .add [1] S1024 (mulf (k2_pay5 (F := Ideal) x0 x1 x2 x3) x4)
        0x00000000#32 reduces_S1024x1024_S1024 (.inl rfl) rfl) shapeCasts_S1024_S1024x1) 0x00000000#32 reduces_S1024x1_S1 (.inl rfl) rfl)
      shapeCasts_S1_S1x1 (ix2 p q) = Cert.Contrast.wsum x0 x1 x2 x3 x4 := by
  refine (Cert.Contrast.colSum_apply _ reduces_S1024x1_S1 (.inl rfl) rfl
    (fun r => funext fun a => Fin.ext (by
      match a with
      | ⟨0, _⟩ => rfl
      | ⟨1, _⟩ => rfl)) shapeCasts_S1_S1x1 p q).trans ?_
  unfold Cert.Contrast.wsum
  refine Finset.sum_congr rfl fun r _ => ?_
  refine (Cert.Dense.laneSum_col_apply _ reduces_S1024x1024_S1024 (.inl rfl) rfl
    (fun p k => funext fun a => Fin.ext (by
      match a with
      | ⟨0, _⟩ => rfl
      | ⟨1, _⟩ => rfl)) shapeCasts_S1024_S1024x1 r 0).trans ?_
  refine Finset.sum_congr rfl fun c _ => ?_
  show k2_pay5 (F := Ideal) x0 x1 x2 x3 (ix2 r c) * x4 (ix2 r c) = _
  rw [weight_apply]

/-- The positive mask's accumulator after a point: what it held plus the tile's sum. -/
theorem acc6_apply (x0 x1 : Vec Ideal S1024x256 .bf16) (x2 : Vec Ideal S1024x1 .f32) (x3 : Vec Ideal S1x1024 .f32)
    (x4 : Vec Ideal S1024x1024 .f32) (xo : Vec Ideal S1x1 .f32) (j : S1x1.Idx) :
    k2_pay1 (F := Ideal) (k2_pay6 x0 x1 x2 x3 x4) xo j = xo j + Cert.Contrast.wsum x0 x1 x2 x3 x4 := by
  obtain ⟨p, q, rfl⟩ : ∃ (p q : Fin 1), j = ix2 p q := ⟨j 0, j 1, eq_ix2 j⟩
  unfold k2_pay1 k2_pay6
  simp only [shapeCast_self]
  show xo (ix2 p q) + _ = _
  rw [tileSum_apply]

/-- The negative mask's accumulator after a point. -/
theorem acc7_apply (x0 x1 : Vec Ideal S1024x256 .bf16) (x2 : Vec Ideal S1024x1 .f32) (x3 : Vec Ideal S1x1024 .f32)
    (x5 : Vec Ideal S1024x1024 .f32) (xo : Vec Ideal S1x1 .f32) (j : S1x1.Idx) :
    k2_pay2 (F := Ideal) (k2_pay7 x0 x1 x2 x3 x5) xo j = xo j + Cert.Contrast.wsum x0 x1 x2 x3 x5 := by
  obtain ⟨p, q, rfl⟩ : ∃ (p q : Fin 1), j = ix2 p q := ⟨j 0, j 1, eq_ix2 j⟩
  unfold k2_pay2 k2_pay7
  simp only [shapeCast_self]
  show xo (ix2 p q) + _ = _
  rw [tileSum_apply]

/-- The block the first point stores before accumulating is zero. -/
theorem zero6_apply (j : S1x1.Idx) : k2_pay3 (F := Ideal) j = 0 := Cert.LibLiterals.ofBits_f32_zero
theorem zero7_apply (j : S1x1.Idx) : k2_pay4 (F := Ideal) j = 0 := Cert.LibLiterals.ofBits_f32_zero

end Cert.KernelIdeal.Acc

end
-- ==== Proof.Acc2.lean ====
/-
  The two running sums of the third launch, over all 64 grid points.

  Point t = 8a + b of the 8 × 8 grid reads rows a · 1024 … of the first projection and of its norms, rows b · 1024 … of
  the second projection and of its norms, and tile (a, b) of each mask. After point n each accumulator therefore holds the
  sum of the tile sums of points 0 … n, and after the last point the sum over all pairs of rows: the regrouping of a
  finite sum of extended reals by tiles. The accumulators' one block is written back once, after the last point, and is
  the whole 1 × 1 result array.
-/
import proofs.«112058_j47974784697102_1_alg».proof.Proof.Body2

noncomputable section

open scoped BigOperators

namespace Cert.KernelIdeal.Acc

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b)) (c : Dev nD)

/-- Which block of each array a grid point reads: decided once over the grid. -/
theorem idx_facts : ∀ t : Fin cfg2.N,
    win2_0.index t 0 = t.val / 8 ∧ win2_0.index t 1 = 0 ∧ win2_1.index t 0 = t.val % 8 ∧ win2_1.index t 1 = 0 ∧
    win2_2.index t 0 = t.val / 8 ∧ win2_2.index t 1 = 0 ∧ win2_3.index t 0 = 0 ∧ win2_3.index t 1 = t.val % 8 ∧
    win2_4.index t 0 = t.val / 8 ∧ win2_4.index t 1 = t.val % 8 ∧ win2_5.index t 0 = t.val / 8 ∧ win2_5.index t 1 = t.val % 8 :=
  (by decide +kernel : ∀ t : Fin grid2.N,
    win2_0.index t 0 = t.val / 8 ∧ win2_0.index t 1 = 0 ∧ win2_1.index t 0 = t.val % 8 ∧ win2_1.index t 1 = 0 ∧
    win2_2.index t 0 = t.val / 8 ∧ win2_2.index t 1 = 0 ∧ win2_3.index t 0 = 0 ∧ win2_3.index t 1 = t.val % 8 ∧
    win2_4.index t 0 = t.val / 8 ∧ win2_4.index t 1 = t.val % 8 ∧ win2_5.index t 0 = t.val / 8 ∧ win2_5.index t 1 = t.val % 8)

/-! ## The blocks a point reads, entry by entry -/

theorem blk0 (t : Fin cfg2.N) (r : Fin 1024) (k : Fin 256) :
    (iblk2 V c 0 t : Vec Ideal S1024x256 .bf16) (ix2 r k) = (V c main_v2_0 : Cert.Dense.Mat 8192 256) (ix2 (Cert.Contrast.at8 (t.val / 8) r) k) := by
  have hi := idx_facts t
  have hN : cfg2.N = 64 := N_2
  have ht := t.isLt
  have hd : t.val / 8 < 8 := by omega
  have hm : t.val % 8 < 8 := by omega
  unfold iblk2
  rw [View.read_apply]
  show V c main_v2_0 _ = V c main_v2_0 _
  refine congrArg _ (funext fun a => Fin.ext ?_)
  match a with
  | ⟨0, _⟩ =>
    show win2_0.index t 0 * 1024 + 1 * r.val = (Cert.Contrast.at8 (t.val / 8) r).val
    rw [hi.1, Cert.Contrast.at8_val _ _ hd]; omega
  | ⟨1, _⟩ =>
    show win2_0.index t 1 * 256 + 1 * k.val = k.val
    rw [hi.2.1]; omega

theorem blk1 (t : Fin cfg2.N) (r : Fin 1024) (k : Fin 256) :
    (iblk2 V c 1 t : Vec Ideal S1024x256 .bf16) (ix2 r k) = (V c main_v3_0 : Cert.Dense.Mat 8192 256) (ix2 (Cert.Contrast.at8 (t.val % 8) r) k) := by
  have hi := idx_facts t
  have hN : cfg2.N = 64 := N_2
  have ht := t.isLt
  have hd : t.val / 8 < 8 := by omega
  have hm : t.val % 8 < 8 := by omega
  unfold iblk2
  rw [View.read_apply]
  show V c main_v3_0 _ = V c main_v3_0 _
  refine congrArg _ (funext fun a => Fin.ext ?_)
  match a with
  | ⟨0, _⟩ =>
    show win2_1.index t 0 * 1024 + 1 * r.val = (Cert.Contrast.at8 (t.val % 8) r).val
    rw [hi.2.2.1, Cert.Contrast.at8_val _ _ hm]; omega
  | ⟨1, _⟩ =>
    show win2_1.index t 1 * 256 + 1 * k.val = k.val
    rw [hi.2.2.2.1]; omega

theorem blk2 (t : Fin cfg2.N) (r : Fin 1024) (k : Fin 1) :
    (iblk2 V c 2 t : Vec Ideal S1024x1 .f32) (ix2 r k) = (V c main_v2_1 : Cert.Dense.Mat 8192 1) (ix2 (Cert.Contrast.at8 (t.val / 8) r) k) := by
  have hi := idx_facts t
  have hN : cfg2.N = 64 := N_2
  have ht := t.isLt
  have hd : t.val / 8 < 8 := by omega
  have hm : t.val % 8 < 8 := by omega
  unfold iblk2
  rw [View.read_apply]
  show V c main_v2_1 _ = V c main_v2_1 _
  refine congrArg _ (funext fun a => Fin.ext ?_)
  match a with
  | ⟨0, _⟩ =>
    show win2_2.index t 0 * 1024 + 1 * r.val = (Cert.Contrast.at8 (t.val / 8) r).val
    rw [hi.2.2.2.2.1, Cert.Contrast.at8_val _ _ hd]; omega
  | ⟨1, _⟩ =>
    show win2_2.index t 1 * 1 + 1 * k.val = k.val
    rw [hi.2.2.2.2.2.1]; omega

theorem blk3 (t : Fin cfg2.N) (r : Fin 1) (k : Fin 1024) :
    (iblk2 V c 3 t : Vec Ideal S1x1024 .f32) (ix2 r k) = (V c main_v4 : Cert.Dense.Mat 1 8192) (ix2 r (Cert.Contrast.at8 (t.val % 8) k)) := by
  have hi := idx_facts t
  have hN : cfg2.N = 64 := N_2
  have ht := t.isLt
  have hd : t.val / 8 < 8 := by omega
  have hm : t.val % 8 < 8 := by omega
  unfold iblk2
  rw [View.read_apply]
  show V c main_v4 _ = V c main_v4 _
  refine congrArg _ (funext fun a => Fin.ext ?_)
  match a with
  | ⟨0, _⟩ =>
    show win2_3.index t 0 * 1 + 1 * r.val = r.val
    rw [hi.2.2.2.2.2.2.1]; omega
  | ⟨1, _⟩ =>
    show win2_3.index t 1 * 1024 + 1 * k.val = (Cert.Contrast.at8 (t.val % 8) k).val
    rw [hi.2.2.2.2.2.2.2.1, Cert.Contrast.at8_val _ _ hm]; omega

theorem blk4 (t : Fin cfg2.N) (r : Fin 1024) (k : Fin 1024) :
    (iblk2 V c 4 t : Vec Ideal S1024x1024 .f32) (ix2 r k) = (V c main_arg2 : Cert.Dense.Mat 8192 8192) (ix2 (Cert.Contrast.at8 (t.val / 8) r) (Cert.Contrast.at8 (t.val % 8) k)) := by
  have hi := idx_facts t
  have hN : cfg2.N = 64 := N_2
  have ht := t.isLt
  have hd : t.val / 8 < 8 := by omega
  have hm : t.val % 8 < 8 := by omega
  unfold iblk2
  rw [View.read_apply]
  show V c main_arg2 _ = V c main_arg2 _
  refine congrArg _ (funext fun a => Fin.ext ?_)
  match a with
  | ⟨0, _⟩ =>
    show win2_4.index t 0 * 1024 + 1 * r.val = (Cert.Contrast.at8 (t.val / 8) r).val
    rw [hi.2.2.2.2.2.2.2.2.1, Cert.Contrast.at8_val _ _ hd]; omega
  | ⟨1, _⟩ =>
    show win2_4.index t 1 * 1024 + 1 * k.val = (Cert.Contrast.at8 (t.val % 8) k).val
    rw [hi.2.2.2.2.2.2.2.2.2.1, Cert.Contrast.at8_val _ _ hm]; omega

theorem blk5 (t : Fin cfg2.N) (r : Fin 1024) (k : Fin 1024) :
    (iblk2 V c 5 t : Vec Ideal S1024x1024 .f32) (ix2 r k) = (V c main_arg3 : Cert.Dense.Mat 8192 8192) (ix2 (Cert.Contrast.at8 (t.val / 8) r) (Cert.Contrast.at8 (t.val % 8) k)) := by
  have hi := idx_facts t
  have hN : cfg2.N = 64 := N_2
  have ht := t.isLt
  have hd : t.val / 8 < 8 := by omega
  have hm : t.val % 8 < 8 := by omega
  unfold iblk2
  rw [View.read_apply]
  show V c main_arg3 _ = V c main_arg3 _
  refine congrArg _ (funext fun a => Fin.ext ?_)
  match a with
  | ⟨0, _⟩ =>
    show win2_5.index t 0 * 1024 + 1 * r.val = (Cert.Contrast.at8 (t.val / 8) r).val
    rw [hi.2.2.2.2.2.2.2.2.2.2.1, Cert.Contrast.at8_val _ _ hd]; omega
  | ⟨1, _⟩ =>
    show win2_5.index t 1 * 1024 + 1 * k.val = (Cert.Contrast.at8 (t.val % 8) k).val
    rw [hi.2.2.2.2.2.2.2.2.2.2.2, Cert.Contrast.at8_val _ _ hm]; omega

/-- The positive mask's tile sum at point t, read off the whole arrays. -/
theorem tile6 (t : Fin cfg2.N) :
    Cert.Contrast.wsum (iblk2 V c 0 t : Vec Ideal S1024x256 .bf16) (iblk2 V c 1 t : Vec Ideal S1024x256 .bf16)
        (iblk2 V c 2 t : Vec Ideal S1024x1 .f32) (iblk2 V c 3 t : Vec Ideal S1x1024 .f32) (iblk2 V c 4 t : Vec Ideal S1024x1024 .f32)
      = Cert.Contrast.tileAt (V c main_v2_0) (V c main_v3_0) (V c main_v2_1) (V c main_v4) (V c main_arg2) t.val :=
  Cert.Contrast.wsum_block (V c main_v2_0) (V c main_v3_0) (V c main_v2_1) (V c main_v4) (V c main_arg2) t.val
    (iblk2 V c 0 t : Vec Ideal S1024x256 .bf16) (iblk2 V c 1 t : Vec Ideal S1024x256 .bf16)
    (iblk2 V c 2 t : Vec Ideal S1024x1 .f32) (iblk2 V c 3 t : Vec Ideal S1x1024 .f32) (iblk2 V c 4 t : Vec Ideal S1024x1024 .f32)
    (blk0 V c t) (blk1 V c t) (fun r => blk2 V c t r 0) (fun q => blk3 V c t 0 q) (blk4 V c t)

/-- The negative mask's tile sum at point t. -/
theorem tile7 (t : Fin cfg2.N) :
    Cert.Contrast.wsum (iblk2 V c 0 t : Vec Ideal S1024x256 .bf16) (iblk2 V c 1 t : Vec Ideal S1024x256 .bf16)
        (iblk2 V c 2 t : Vec Ideal S1024x1 .f32) (iblk2 V c 3 t : Vec Ideal S1x1024 .f32) (iblk2 V c 5 t : Vec Ideal S1024x1024 .f32)
      = Cert.Contrast.tileAt (V c main_v2_0) (V c main_v3_0) (V c main_v2_1) (V c main_v4) (V c main_arg3) t.val :=
  Cert.Contrast.wsum_block (V c main_v2_0) (V c main_v3_0) (V c main_v2_1) (V c main_v4) (V c main_arg3) t.val
    (iblk2 V c 0 t : Vec Ideal S1024x256 .bf16) (iblk2 V c 1 t : Vec Ideal S1024x256 .bf16)
    (iblk2 V c 2 t : Vec Ideal S1024x1 .f32) (iblk2 V c 3 t : Vec Ideal S1x1024 .f32) (iblk2 V c 5 t : Vec Ideal S1024x1024 .f32)
    (blk0 V c t) (blk1 V c t) (fun r => blk2 V c t r 0) (fun q => blk3 V c t 0 q) (blk5 V c t)

/-! ## One point -/

/-- The first point leaves each accumulator at zero plus its tile's sum. -/
theorem step_first (t : Fin cfg2.N) (h0 : t.val % 64 = 0) (j : S1x1.Idx) :
    (outsAt2 V c t.val t.isLt).1 j = Cert.Contrast.tileAt (V c main_v2_0) (V c main_v3_0) (V c main_v2_1) (V c main_v4) (V c main_arg2) t.val
    ∧ (outsAt2 V c t.val t.isLt).2 j = Cert.Contrast.tileAt (V c main_v2_0) (V c main_v3_0) (V c main_v2_1) (V c main_v4) (V c main_arg3) t.val := by
  rw [outsAt2_A V c t h0]
  dsimp only
  rw [out_A_6, out_A_7, acc6_apply, acc7_apply, zero6_apply, zero7_apply, zero_add, zero_add]
  exact ⟨tile6 V c t, tile7 V c t⟩

/-- A later point adds its tile's sum to what the point before left. -/
theorem step_later (t : Fin cfg2.N) (h0 : ¬t.val % 64 = 0) (j : S1x1.Idx) :
    (outsAt2 V c t.val t.isLt).1 j = (outsAt2 V c (t.val - 1) (Nat.lt_of_le_of_lt (Nat.sub_le _ _) t.isLt)).1 j
        + Cert.Contrast.tileAt (V c main_v2_0) (V c main_v3_0) (V c main_v2_1) (V c main_v4) (V c main_arg2) t.val
    ∧ (outsAt2 V c t.val t.isLt).2 j = (outsAt2 V c (t.val - 1) (Nat.lt_of_le_of_lt (Nat.sub_le _ _) t.isLt)).2 j
        + Cert.Contrast.tileAt (V c main_v2_0) (V c main_v3_0) (V c main_v2_1) (V c main_v4) (V c main_arg3) t.val := by
  rw [outsAt2_B V c t h0]
  dsimp only
  rw [out_B_6, out_B_7, acc6_apply, acc7_apply]
  exact ⟨congrArg _ (tile6 V c t), congrArg _ (tile7 V c t)⟩

/-! ## All points -/

/-- After point n each accumulator holds the sum of the tile sums of points 0 … n. -/
theorem outsAt_eq : ∀ (n : ℕ) (h : n < cfg2.N) (j : S1x1.Idx),
    (outsAt2 V c n h).1 j = ∑ t ∈ Finset.range (n + 1), Cert.Contrast.tileAt (V c main_v2_0) (V c main_v3_0) (V c main_v2_1) (V c main_v4) (V c main_arg2) t
    ∧ (outsAt2 V c n h).2 j = ∑ t ∈ Finset.range (n + 1), Cert.Contrast.tileAt (V c main_v2_0) (V c main_v3_0) (V c main_v2_1) (V c main_v4) (V c main_arg3) t
  | 0, h, j => by
    obtain ⟨e1, e2⟩ := step_first V c ⟨0, h⟩ rfl j
    exact ⟨e1.trans (Finset.sum_range_one _).symm, e2.trans (Finset.sum_range_one _).symm⟩
  | n + 1, h, j => by
    have hN : cfg2.N = 64 := N_2
    have hB : ¬(⟨n + 1, h⟩ : Fin cfg2.N).val % 64 = 0 := by dsimp only; omega
    obtain ⟨e1, e2⟩ := step_later V c ⟨n + 1, h⟩ hB j
    obtain ⟨i1, i2⟩ := outsAt_eq n (Nat.lt_of_succ_lt h) j
    constructor
    · refine e1.trans ?_
      show (outsAt2 V c n _).1 j + _ = _
      rw [i1]
      exact (Finset.sum_range_succ _ (n + 1)).symm
    · refine e2.trans ?_
      show (outsAt2 V c n _).2 j + _ = _
      rw [i2]
      exact (Finset.sum_range_succ _ (n + 1)).symm

/-- The last grid point. -/
def tLast : Fin cfg2.N := ⟨63, by rw [show cfg2.N = 64 from N_2]; decide⟩

/-- The positive mask's total as contents of its 1 × 1 result array. -/
abbrev total6 : Buf (Elt Ideal) ((c : Thread nD τ).loc main_v5_0) :=
  fun _ => Cert.Contrast.wsum (V c main_v2_0) (V c main_v3_0) (V c main_v2_1) (V c main_v4) (V c main_arg2)
/-- The negative mask's total as contents of its 1 × 1 result array. -/
abbrev total7 : Buf (Elt Ideal) ((c : Thread nD τ).loc main_v5_1) :=
  fun _ => Cert.Contrast.wsum (V c main_v2_0) (V c main_v3_0) (V c main_v2_1) (V c main_v4) (V c main_arg3)

theorem last6 : (outsAt2 V c tLast.val tLast.isLt).1 = total6 V c :=
  funext fun j => ((outsAt_eq V c 63 tLast.isLt j).1).trans (Cert.Contrast.wsum_tiles _ _ _ _ _).symm
theorem last7 : (outsAt2 V c tLast.val tLast.isLt).2 = total7 V c :=
  funext fun j => ((outsAt_eq V c 63 tLast.isLt j).2).trans (Cert.Contrast.wsum_tiles _ _ _ _ _).symm

/-! ## The result arrays -/

theorem flushed6 (t : Fin cfg2.N) (hf : (cfg2.win 6).flush t = true) :
    (dat2 V c).flushed 6 t = ((cfg2.win 6).blk t).view.read (Elt Ideal) (total6 V c) := by
  have hN : cfg2.N = 64 := N_2
  have h63 : t.val = 63 := by have := (flush2_6 t).mp hf; have := t.isLt; omega
  obtain rfl : t = tLast := Fin.ext h63
  show (cfg2.win 6).cut (grid2.coords tLast) ((dat2 V c).after 6 tLast) = _
  rw [after2_6, last6]
  have hz' : (fun a => win2_6.index tLast a * main_v5_0.ty.shape.size a) = fun _ => 0 := funext fun a => by fin_cases a <;> decide
  exact (Memref.read_access_unit_zero (Elt Ideal) main_v5_0 hz' (fun a => by rw [congrFun hz' a]; simp) (total6 V c)).symm

theorem flushed7 (t : Fin cfg2.N) (hf : (cfg2.win 7).flush t = true) :
    (dat2 V c).flushed 7 t = ((cfg2.win 7).blk t).view.read (Elt Ideal) (total7 V c) := by
  have hN : cfg2.N = 64 := N_2
  have h63 : t.val = 63 := by have := (flush2_7 t).mp hf; have := t.isLt; omega
  obtain rfl : t = tLast := Fin.ext h63
  show (cfg2.win 7).cut (grid2.coords tLast) ((dat2 V c).after 7 tLast) = _
  rw [after2_7, last7]
  have hz' : (fun a => win2_7.index tLast a * main_v5_1.ty.shape.size a) = fun _ => 0 := funext fun a => by fin_cases a <;> decide
  exact (Memref.read_access_unit_zero (Elt Ideal) main_v5_1 hz' (fun a => by rw [congrFun hz' a]; simp) (total7 V c)).symm

/-- The positive mask's result array ends holding the sum over all pairs of rows. -/
theorem final6 : (dat2 V c).arrAt 6 cfg2.N = total6 V c :=
  (dat2 V c).arrAt_eq_of_cover 6 (total6 V c) (flushed6 V c) fun i =>
    ⟨tLast, (flush2_6 tLast).mpr (by decide), by
      show i ∈ ((View.whole main_v5_0).slice (win2_6.rect tLast)).set
      rw [View.set_slice_whole, Rect.mem_set_unit]
      intro a
      have h0 : (i 0 : Nat) < 1 := (i 0).isLt
      have h1 : (i 1 : Nat) < 1 := (i 1).isLt
      match a with
      | ⟨0, _⟩ => show win2_6.index tLast 0 * win2_6.size 0 ≤ (i 0 : Nat) ∧ (i 0 : Nat) < win2_6.index tLast 0 * win2_6.size 0 + win2_6.xsize (grid2.coords tLast) 0
                  rw [show win2_6.index tLast 0 * win2_6.size 0 = 0 from by decide +kernel, show win2_6.xsize (grid2.coords tLast) 0 = 1 from by decide +kernel]; omega
      | ⟨1, _⟩ => show win2_6.index tLast 1 * win2_6.size 1 ≤ (i 1 : Nat) ∧ (i 1 : Nat) < win2_6.index tLast 1 * win2_6.size 1 + win2_6.xsize (grid2.coords tLast) 1
                  rw [show win2_6.index tLast 1 * win2_6.size 1 = 0 from by decide +kernel, show win2_6.xsize (grid2.coords tLast) 1 = 1 from by decide +kernel]; omega⟩

/-- The negative mask's result array likewise. -/
theorem final7 : (dat2 V c).arrAt 7 cfg2.N = total7 V c :=
  (dat2 V c).arrAt_eq_of_cover 7 (total7 V c) (flushed7 V c) fun i =>
    ⟨tLast, (flush2_7 tLast).mpr (by decide), by
      show i ∈ ((View.whole main_v5_1).slice (win2_7.rect tLast)).set
      rw [View.set_slice_whole, Rect.mem_set_unit]
      intro a
      have h0 : (i 0 : Nat) < 1 := (i 0).isLt
      have h1 : (i 1 : Nat) < 1 := (i 1).isLt
      match a with
      | ⟨0, _⟩ => show win2_7.index tLast 0 * win2_7.size 0 ≤ (i 0 : Nat) ∧ (i 0 : Nat) < win2_7.index tLast 0 * win2_7.size 0 + win2_7.xsize (grid2.coords tLast) 0
                  rw [show win2_7.index tLast 0 * win2_7.size 0 = 0 from by decide +kernel, show win2_7.xsize (grid2.coords tLast) 0 = 1 from by decide +kernel]; omega
      | ⟨1, _⟩ => show win2_7.index tLast 1 * win2_7.size 1 ≤ (i 1 : Nat) ∧ (i 1 : Nat) < win2_7.index tLast 1 * win2_7.size 1 + win2_7.xsize (grid2.coords tLast) 1
                  rw [show win2_7.index tLast 1 * win2_7.size 1 = 0 from by decide +kernel, show win2_7.xsize (grid2.coords tLast) 1 = 1 from by decide +kernel]; omega⟩

end Cert.KernelIdeal.Acc

end
-- ==== Proof.ProjValue.lean ====
/-
  The two projection calls, read as whole arrays.

  Each call sends a batch x of 8192 rows through z = elu(x · WT + b) and also records every row's Euclidean norm. The
  grid has 8 points; point t takes rows 1024·t … 1024·t + 1023 of x together with the whole weight matrix WT and the
  whole bias row b, and writes back the same rows of z and of the column of norms.

  On the extended reals the body's arithmetic is exact: the block product into a zero accumulator plus the broadcast
  bias row is the affine layer, a change of float format is the identity, the comparison with zero selecting between y
  and exp y − 1 is the exponential linear unit, and the square root of the lane sum of squares is the row norm. An
  entry of the layer, and the norm of a row of it, depend on that row of x alone, so what a point computes from its
  block is the whole-array function at the block's rows. The blocks of z (and of the norms) tile their arrays — row r
  lies in the block of point r / 1024 — so after the run z is the projection of x and the column of norms holds, at
  row r, the norm of row r of that projection.
-/
import proofs.«112058_j47974784697102_1_alg».proof.Proof.Gen.KernelIdeal.Frame
import proofs.«112058_j47974784697102_1_alg».proof.Proof.Spec
import proofs.«112058_j47974784697102_1_alg».proof.Proof.LibRowStat

noncomputable section

open scoped BigOperators
open Idealize.ShloMosaic Idealize.ShloMosaic.TcCoe Idealize.ShloMosaic.ValueIdx
open Idealize.ShloMosaic.Pipeline (Dat)

namespace Cert.KernelIdeal.ProjValue

open Cert.KernelIdeal Cert.KernelIdeal.Gen Cert.Dense Cert.Contrast

/-- The zero offsets of a rank-2 rectangle, however spelt. -/
theorem hz : (![0, 0] : Fin 2 → Nat) = fun _ => 0 := funext fun a => by fin_cases a <;> rfl

/-- The printed record of the block product is the plain 1024×256 by 256×256 one. -/
theorem dot_plain : dot_S1024x256_S256x256_S1024x256_1_0_0_1_n_n = DotDims.plain 1024 256 256 := rfl

/-- Row p of the reduced vector with lane k put back is entry (p, k). -/
theorem lift_row (p : Fin 1024) (k : Fin 256) : reduces_S1024x256_S1024.lift (ix1 p) k = ix2 p k := by
  funext c; apply Fin.ext
  fin_cases c <;> rfl

/-- The body's selected value is the projection of its three loaded blocks: the product into a zero accumulator plus the
    bias row is the affine layer, a change of float format is the identity on the extended reals, and the comparison with
    the zero word selecting between y and exp y minus the word of one is the exponential linear unit. -/
theorem pay0_eq (x0 : Vec Ideal S1024x256 .f32) (x1 : Vec Ideal S256x256 .f32) (x2 : Vec Ideal S1x256 .f32) :
    (k0_pay1 (F := Ideal) x0 x1 x2 : S1024x256.Idx → EReal) = Contrast.proj x0 x1 x2 := by
  unfold k0_pay1
  dsimp only
  rw [shapeCast_self, shapeCast_self, dot_plain, addf_matmul_broadcastTo]
  funext i
  exact elu_words _

/-- What the body leaves in the block of z: the projection of the loaded blocks (stored in a narrower format, which the
    extended reals do not see). -/
theorem out0_z (x0 : Vec Ideal S1024x256 .f32) (x1 : Vec Ideal S256x256 .f32) (x2 : Vec Ideal S1x256 .f32) :
    (out0_3 (F := Ideal) x0 x1 x2 : S1024x256.Idx → EReal) = Contrast.proj x0 x1 x2 := by
  unfold out0_3
  rw [View.canon_unit_zero hz]
  simp only [View.ld_unit_zero (S := S1024x256) hz, View.ld_unit_zero (S := S256x256) hz, View.ld_unit_zero (S := S1x256) hz]
  exact (show (k0_pay2 (F := Ideal) x0 x1 x2 : S1024x256.Idx → EReal) = k0_pay1 (F := Ideal) x0 x1 x2 from rfl).trans (pay0_eq x0 x1 x2)

/-- What the body leaves in the block of norms, at row p: the square root of the lane sum of the squared projection,
    which is the Euclidean norm of row p of the projection. -/
theorem out0_n (x0 : Vec Ideal S1024x256 .f32) (x1 : Vec Ideal S256x256 .f32) (x2 : Vec Ideal S1x256 .f32) (p : Fin 1024) (q : Fin 1) :
    (out0_4 (F := Ideal) x0 x1 x2 : S1024x1.Idx → EReal) (ix2 p q) = Contrast.nrm (Contrast.proj x0 x1 x2) p := by
  unfold out0_4
  rw [View.canon_unit_zero hz]
  simp only [View.ld_unit_zero (S := S1024x256) hz, View.ld_unit_zero (S := S256x256) hz, View.ld_unit_zero (S := S1x256) hz]
  unfold k0_pay3
  dsimp only
  refine (congrArg Ideal.sqrt (laneSum_col_apply (mulf (k0_pay1 (F := Ideal) x0 x1 x2) (k0_pay1 (F := Ideal) x0 x1 x2))
    reduces_S1024x256_S1024 (.inl rfl) rfl lift_row shapeCasts_S1024_S1024x1 p q)).trans ?_
  rw [pay0_eq]
  rfl

/-- The body's selected value is the projection of its three loaded blocks: the product into a zero accumulator plus the
    bias row is the affine layer, a change of float format is the identity on the extended reals, and the comparison with
    the zero word selecting between y and exp y minus the word of one is the exponential linear unit. -/
theorem pay1_eq (x0 : Vec Ideal S1024x256 .f32) (x1 : Vec Ideal S256x256 .f32) (x2 : Vec Ideal S1x256 .f32) :
    (k1_pay1 (F := Ideal) x0 x1 x2 : S1024x256.Idx → EReal) = Contrast.proj x0 x1 x2 := by
  unfold k1_pay1
  dsimp only
  rw [shapeCast_self, shapeCast_self, dot_plain, addf_matmul_broadcastTo]
  funext i
  exact elu_words _

/-- What the body leaves in the block of z: the projection of the loaded blocks (stored in a narrower format, which the
    extended reals do not see). -/
theorem out1_z (x0 : Vec Ideal S1024x256 .f32) (x1 : Vec Ideal S256x256 .f32) (x2 : Vec Ideal S1x256 .f32) :
    (out1_3 (F := Ideal) x0 x1 x2 : S1024x256.Idx → EReal) = Contrast.proj x0 x1 x2 := by
  unfold out1_3
  rw [View.canon_unit_zero hz]
  simp only [View.ld_unit_zero (S := S1024x256) hz, View.ld_unit_zero (S := S256x256) hz, View.ld_unit_zero (S := S1x256) hz]
  exact (show (k1_pay2 (F := Ideal) x0 x1 x2 : S1024x256.Idx → EReal) = k1_pay1 (F := Ideal) x0 x1 x2 from rfl).trans (pay1_eq x0 x1 x2)

/-- What the body leaves in the block of norms, at row p: the square root of the lane sum of the squared projection,
    which is the Euclidean norm of row p of the projection. -/
theorem out1_n (x0 : Vec Ideal S1024x256 .f32) (x1 : Vec Ideal S256x256 .f32) (x2 : Vec Ideal S1x256 .f32) (p : Fin 1024) (q : Fin 1) :
    (out1_4 (F := Ideal) x0 x1 x2 : S1024x1.Idx → EReal) (ix2 p q) = Contrast.nrm (Contrast.proj x0 x1 x2) p := by
  unfold out1_4
  rw [View.canon_unit_zero hz]
  simp only [View.ld_unit_zero (S := S1024x256) hz, View.ld_unit_zero (S := S256x256) hz, View.ld_unit_zero (S := S1x256) hz]
  unfold k1_pay3
  dsimp only
  refine (congrArg Ideal.sqrt (laneSum_col_apply (mulf (k1_pay1 (F := Ideal) x0 x1 x2) (k1_pay1 (F := Ideal) x0 x1 x2))
    reduces_S1024x256_S1024 (.inl rfl) rfl lift_row shapeCasts_S1024_S1024x1 p q)).trans ?_
  rw [pay1_eq]
  rfl

/-- Row p of the block of 1024 rows at point n of the grid is row 1024·n + p of the array. -/
def rowAt (n : ℕ) (hn : n < 8) (p : Fin 1024) : Fin 8192 := ⟨n * 1024 + p.val, by have := p.isLt; omega⟩

/-- A block whose rows are the array's rows 1024·n + p, projected with the whole weight matrix and bias row, is the
    projection of the whole array at those rows: an entry of the layer depends on its own row of x alone. -/
theorem block_z (A : Mat 8192 256) (WT : Mat 256 256) (b2 : Mat 1 256) (n : ℕ) (hn : n < 8) (x0 : Mat 1024 256)
    (h0 : ∀ p k, x0 (ix2 p k) = A (ix2 (rowAt n hn p) k)) (y : S1024x256.Idx) (i : S8192x256.Idx)
    (hi0 : (i 0).val = n * 1024 + (y 0).val) (hi1 : (i 1).val = (y 1).val) :
    Contrast.proj x0 WT b2 y = Contrast.proj A WT b2 i := by
  obtain ⟨p, q, rfl⟩ : ∃ (p : Fin 1024) (q : Fin 256), y = ix2 p q := ⟨y 0, y 1, eq_ix2 y⟩
  have ei : i = ix2 (rowAt n hn p) q := by
    funext a; apply Fin.ext
    match a with
    | ⟨0, _⟩ => exact hi0
    | ⟨1, _⟩ => exact hi1
  rw [ei]
  exact proj_rows A x0 WT b2 (rowAt n hn) h0 p q

/-- The norm of row p of the projected block is the norm of row 1024·n + p of the projected array. -/
theorem block_n (A : Mat 8192 256) (WT : Mat 256 256) (b2 : Mat 1 256) (n : ℕ) (hn : n < 8) (x0 : Mat 1024 256)
    (h0 : ∀ p k, x0 (ix2 p k) = A (ix2 (rowAt n hn p) k)) (p : Fin 1024) (r : Fin 8192) (hr : r.val = n * 1024 + p.val) :
    Contrast.nrm (Contrast.proj x0 WT b2) p = Contrast.nrm (Contrast.proj A WT b2) r := by
  have e : r = rowAt n hn p := Fin.ext hr
  rw [e]
  exact nrm_rows (Contrast.proj A WT b2) (Contrast.proj x0 WT b2) (rowAt n hn)
    (fun p k => proj_rows A x0 WT b2 (rowAt n hn) h0 p k) p

section Region0

variable (V : (c : Dev nD) → (b : Ref sig .tc) → Buf (Elt Ideal) ((c : Thread nD τ).loc b)) (c : Dev nD)

/-- A point of the grid is below 8. -/
theorem lt8_0 (t : Fin cfg0.N) : t.val < 8 := lt_of_lt_of_eq t.isLt N_0

/-- The printed index maps, decided over the grid: the blocks of x, of z and of the norms sit at block row t, the weight
    matrix and the bias row at block (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The block of x at point t, row p: row 1024·t + p of x. -/
theorem xblk0_rows (t : Fin cfg0.N) (p : Fin 1024) (k : Fin 256) :
    (iblk0 (F := Ideal) V c 0 t : S1024x256.Idx → EReal) (ix2 p k)
      = (V c main_arg0 : S8192x256.Idx → EReal) (ix2 (rowAt t.val (lt8_0 t) p) k) := by
  obtain ⟨e0, e1, -⟩ := idx0 t
  unfold iblk0
  show V c main_arg0 (((cfg0.win 0).blk t).view.emb (ix2 p k)) = V c main_arg0 _
  congr 1
  funext a; apply Fin.ext
  match a with
  | ⟨0, _⟩ => show win0_0.index t (0 : Fin 2) * 1024 + 1 * p.val = t.val * 1024 + p.val; rw [e0]; omega
  | ⟨1, _⟩ => show win0_0.index t (1 : Fin 2) * 256 + 1 * k.val = k.val; rw [e1]; omega

/-- The weight matrix is read whole at every point. -/
theorem wblk0 (t : Fin cfg0.N) : (iblk0 (F := Ideal) V c 1 t : S256x256.Idx → EReal) = V c main_v0 := by
  obtain ⟨-, -, e0, e1, -⟩ := idx0 t
  unfold iblk0
  funext y
  show V c main_v0 (((cfg0.win 1).blk t).view.emb y) = V c main_v0 y
  congr 1
  funext a; apply Fin.ext
  match a with
  | ⟨0, _⟩ => show win0_1.index t (0 : Fin 2) * 256 + 1 * (y 0).val = (y 0).val; rw [e0]; omega
  | ⟨1, _⟩ => show win0_1.index t (1 : Fin 2) * 256 + 1 * (y 1).val = (y 1).val; rw [e1]; omega

/-- The bias row is read whole at every point. -/
theorem bblk0 (t : Fin cfg0.N) : (iblk0 (F := Ideal) V c 2 t : S1x256.Idx → EReal) = V c main_v1 := by
  obtain ⟨-, -, -, -, e0, e1, -⟩ := idx0 t
  unfold iblk0
  funext y
  show V c main_v1 (((cfg0.win 2).blk t).view.emb y) = V c main_v1 y
  congr 1
  funext a; apply Fin.ext
  match a with
  | ⟨0, _⟩ => show win0_2.index t (0 : Fin 2) * 1 + 1 * (y 0).val = (y 0).val; rw [e0]; omega
  | ⟨1, _⟩ => show win0_2.index t (1 : Fin 2) * 256 + 1 * (y 1).val = (y 1).val; rw [e1]; omega

/-- What point t writes back into z is block t of the projection of the whole array. -/
theorem flushed0_z (t : Fin cfg0.N) :
    (dat0 (F := Ideal) V c).flushed 3 t
      = ((cfg0.win 3).blk t).view.read (Elt Ideal) (Contrast.proj (V c main_arg0) (V c main_v0) (V c main_v1)) := by
  obtain ⟨-, -, -, -, -, -, e0, e1, -⟩ := idx0 t
  show (cfg0.win 3).cut (grid0.coords t) ((dat0 V c).after 3 t) = _
  rw [after0_3]
  refine (congrArg ((cfg0.win 3).cut (grid0.coords t)) (out0_z (iblk0 V c 0 t) (iblk0 V c 1 t) (iblk0 V c 2 t))).trans ?_
  rw [wblk0 V c t, bblk0 V c t]
  refine funext fun (y : S1024x256.Idx) => ?_
  show Contrast.proj (iblk0 V c 0 t) (V c main_v0) (V c main_v1) y
    = Contrast.proj (V c main_arg0) (V c main_v0) (V c main_v1) (((cfg0.win 3).blk t).view.emb y)
  refine block_z (V c main_arg0) (V c main_v0) (V c main_v1) t.val (lt8_0 t) (iblk0 V c 0 t) (xblk0_rows V c t) y _ ?_ ?_
  · show win0_3.index t (0 : Fin 2) * 1024 + 1 * (y 0).val = t.val * 1024 + (y 0).val; rw [e0]; omega
  · show win0_3.index t (1 : Fin 2) * 256 + 1 * (y 1).val = (y 1).val; rw [e1]; omega

/-- What point t writes back into the norms is block t of the row norms of the projection of the whole array. -/
theorem flushed0_n (t : Fin cfg0.N) :
    (dat0 (F := Ideal) V c).flushed 4 t
      = ((cfg0.win 4).blk t).view.read (Elt Ideal)
          (fun i : S8192x1.Idx => Contrast.nrm (Contrast.proj (V c main_arg0) (V c main_v0) (V c main_v1)) (i 0)) := by
  obtain ⟨-, -, -, -, -, -, -, -, e0, e1⟩ := idx0 t
  show (cfg0.win 4).cut (grid0.coords t) ((dat0 V c).after 4 t) = _
  rw [after0_4]
  refine funext fun (y : S1024x1.Idx) => ?_
  obtain ⟨p, q, rfl⟩ : ∃ (p : Fin 1024) (q : Fin 1), y = ix2 p q := ⟨y 0, y 1, eq_ix2 y⟩
  show (out0_4 (F := Ideal) (iblk0 V c 0 t) (iblk0 V c 1 t) (iblk0 V c 2 t) : S1024x1.Idx → EReal) (ix2 p q)
    = Contrast.nrm (Contrast.proj (V c main_arg0) (V c main_v0) (V c main_v1)) ((((cfg0.win 4).blk t).view.emb (ix2 p q)) 0)
  refine (out0_n (iblk0 V c 0 t) (iblk0 V c 1 t) (iblk0 V c 2 t) p q).trans ?_
  rw [wblk0 V c t, bblk0 V c t]
  refine block_n (V c main_arg0) (V c main_v0) (V c main_v1) t.val (lt8_0 t) (iblk0 V c 0 t) (xblk0_rows V c t) p _ ?_
  show win0_4.index t (0 : Fin 2) * 1024 + 1 * p.val = t.val * 1024 + p.val; rw [e0]; omega

/-- Row r of the array is in the block of point r / 1024. -/
def ptOf0 (r : Fin 8192) : Fin cfg0.N := ⟨r.val / 1024, by rw [show cfg0.N = 8 from N_0]; have := r.isLt; omega⟩

/-- The array of z after the run is the projection of x. -/
theorem final0_z : (dat0 (F := Ideal) V c).arrAt 3 cfg0.N = Contrast.proj (V c main_arg0) (V c main_v0) (V c main_v1) :=
  (dat0 V c).arrAt_eq_of_cover 3 (Contrast.proj (V c main_arg0) (V c main_v0) (V c main_v1)) (fun t _ => flushed0_z V c t) fun i =>
    ⟨ptOf0 (i 0), flush0_3 _, by
      obtain ⟨-, -, -, -, -, -, e0, e1, -⟩ := idx0 (ptOf0 (i 0))
      show i ∈ ((View.whole main_v2_0).slice (win0_3.rect (ptOf0 (i 0)))).set
      rw [View.set_slice_whole, Rect.mem_set_unit]
      intro a
      have h0 : (i 0).val < 8192 := (i 0).isLt
      have h1 : (i 1).val < 256 := (i 1).isLt
      match a with
      | ⟨0, _⟩ =>
        show win0_3.index (ptOf0 (i 0)) (0 : Fin 2) * 1024 ≤ (i 0).val ∧ (i 0).val < win0_3.index (ptOf0 (i 0)) (0 : Fin 2) * 1024 + 1024
        rw [e0]; show (i 0).val / 1024 * 1024 ≤ (i 0).val ∧ (i 0).val < (i 0).val / 1024 * 1024 + 1024; omega
      | ⟨1, _⟩ =>
        show win0_3.index (ptOf0 (i 0)) (1 : Fin 2) * 256 ≤ (i 1).val ∧ (i 1).val < win0_3.index (ptOf0 (i 0)) (1 : Fin 2) * 256 + 256
        rw [e1]; omega⟩

/-- The array of norms after the run holds, at row r, the norm of row r of the projection of x. -/
theorem final0_n : (dat0 (F := Ideal) V c).arrAt 4 cfg0.N
    = fun i => Contrast.nrm (Contrast.proj (V c main_arg0) (V c main_v0) (V c main_v1)) (i 0) :=
  (dat0 V c).arrAt_eq_of_cover 4 (fun i : S8192x1.Idx => Contrast.nrm (Contrast.proj (V c main_arg0) (V c main_v0) (V c main_v1)) (i 0))
    (fun t _ => flushed0_n V c t) fun i =>
    ⟨ptOf0 (i 0), flush0_4 _, by
      obtain ⟨-, -, -, -, -, -, -, -, e0, e1⟩ := idx0 (ptOf0 (i 0))
      show i ∈ ((View.whole main_v2_1).slice (win0_4.rect (ptOf0 (i 0)))).set
      rw [View.set_slice_whole, Rect.mem_set_unit]
      intro a
      have h0 : (i 0).val < 8192 := (i 0).isLt
      have h1 : (i 1).val < 1 := (i 1).isLt
      match a with
      | ⟨0, _⟩ =>
        show win0_4.index (ptOf0 (i 0)) (0 : Fin 2) * 1024 ≤ (i 0).val ∧ (i 0).val < win0_4.index (ptOf0 (i 0)) (0 : Fin 2) * 1024 + 1024
        rw [e0]; show (i 0).val / 1024 * 1024 ≤ (i 0).val ∧ (i 0).val < (i 0).val / 1024 * 1024 + 1024; omega
      | ⟨1, _⟩ =>
        show win0_4.index (ptOf0 (i 0)) (1 : Fin 2) * 1 ≤ (i 1).val ∧ (i 1).val < win0_4.index (ptOf0 (i 0)) (1 : Fin 2) * 1 + 1
        rw [e1]; omega⟩

end Region0

section Region1

variable (V : (c : Dev nD) → (b : Ref sig .tc) → Buf (Elt Ideal) ((c : Thread nD τ).loc b)) (c : Dev nD)

/-- A point of the grid is below 8. -/
theorem lt8_1 (t : Fin cfg1.N) : t.val < 8 := lt_of_lt_of_eq t.isLt N_1

/-- The printed index maps, decided over the grid: the blocks of x, of z and of the norms sit at block row t, the weight
    matrix and the bias row at block (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- The block of x at point t, row p: row 1024·t + p of x. -/
theorem xblk1_rows (t : Fin cfg1.N) (p : Fin 1024) (k : Fin 256) :
    (iblk1 (F := Ideal) V c 0 t : S1024x256.Idx → EReal) (ix2 p k)
      = (V c main_arg1 : S8192x256.Idx → EReal) (ix2 (rowAt t.val (lt8_1 t) p) k) := by
  obtain ⟨e0, e1, -⟩ := idx1 t
  unfold iblk1
  show V c main_arg1 (((cfg1.win 0).blk t).view.emb (ix2 p k)) = V c main_arg1 _
  congr 1
  funext a; apply Fin.ext
  match a with
  | ⟨0, _⟩ => show win1_0.index t (0 : Fin 2) * 1024 + 1 * p.val = t.val * 1024 + p.val; rw [e0]; omega
  | ⟨1, _⟩ => show win1_0.index t (1 : Fin 2) * 256 + 1 * k.val = k.val; rw [e1]; omega

/-- The weight matrix is read whole at every point. -/
theorem wblk1 (t : Fin cfg1.N) : (iblk1 (F := Ideal) V c 1 t : S256x256.Idx → EReal) = V c main_v0 := by
  obtain ⟨-, -, e0, e1, -⟩ := idx1 t
  unfold iblk1
  funext y
  show V c main_v0 (((cfg1.win 1).blk t).view.emb y) = V c main_v0 y
  congr 1
  funext a; apply Fin.ext
  match a with
  | ⟨0, _⟩ => show win1_1.index t (0 : Fin 2) * 256 + 1 * (y 0).val = (y 0).val; rw [e0]; omega
  | ⟨1, _⟩ => show win1_1.index t (1 : Fin 2) * 256 + 1 * (y 1).val = (y 1).val; rw [e1]; omega

/-- The bias row is read whole at every point. -/
theorem bblk1 (t : Fin cfg1.N) : (iblk1 (F := Ideal) V c 2 t : S1x256.Idx → EReal) = V c main_v1 := by
  obtain ⟨-, -, -, -, e0, e1, -⟩ := idx1 t
  unfold iblk1
  funext y
  show V c main_v1 (((cfg1.win 2).blk t).view.emb y) = V c main_v1 y
  congr 1
  funext a; apply Fin.ext
  match a with
  | ⟨0, _⟩ => show win1_2.index t (0 : Fin 2) * 1 + 1 * (y 0).val = (y 0).val; rw [e0]; omega
  | ⟨1, _⟩ => show win1_2.index t (1 : Fin 2) * 256 + 1 * (y 1).val = (y 1).val; rw [e1]; omega

/-- What point t writes back into z is block t of the projection of the whole array. -/
theorem flushed1_z (t : Fin cfg1.N) :
    (dat1 (F := Ideal) V c).flushed 3 t
      = ((cfg1.win 3).blk t).view.read (Elt Ideal) (Contrast.proj (V c main_arg1) (V c main_v0) (V c main_v1)) := by
  obtain ⟨-, -, -, -, -, -, e0, e1, -⟩ := idx1 t
  show (cfg1.win 3).cut (grid1.coords t) ((dat1 V c).after 3 t) = _
  rw [after1_3]
  refine (congrArg ((cfg1.win 3).cut (grid1.coords t)) (out1_z (iblk1 V c 0 t) (iblk1 V c 1 t) (iblk1 V c 2 t))).trans ?_
  rw [wblk1 V c t, bblk1 V c t]
  refine funext fun (y : S1024x256.Idx) => ?_
  show Contrast.proj (iblk1 V c 0 t) (V c main_v0) (V c main_v1) y
    = Contrast.proj (V c main_arg1) (V c main_v0) (V c main_v1) (((cfg1.win 3).blk t).view.emb y)
  refine block_z (V c main_arg1) (V c main_v0) (V c main_v1) t.val (lt8_1 t) (iblk1 V c 0 t) (xblk1_rows V c t) y _ ?_ ?_
  · show win1_3.index t (0 : Fin 2) * 1024 + 1 * (y 0).val = t.val * 1024 + (y 0).val; rw [e0]; omega
  · show win1_3.index t (1 : Fin 2) * 256 + 1 * (y 1).val = (y 1).val; rw [e1]; omega

/-- What point t writes back into the norms is block t of the row norms of the projection of the whole array. -/
theorem flushed1_n (t : Fin cfg1.N) :
    (dat1 (F := Ideal) V c).flushed 4 t
      = ((cfg1.win 4).blk t).view.read (Elt Ideal)
          (fun i : S8192x1.Idx => Contrast.nrm (Contrast.proj (V c main_arg1) (V c main_v0) (V c main_v1)) (i 0)) := by
  obtain ⟨-, -, -, -, -, -, -, -, e0, e1⟩ := idx1 t
  show (cfg1.win 4).cut (grid1.coords t) ((dat1 V c).after 4 t) = _
  rw [after1_4]
  refine funext fun (y : S1024x1.Idx) => ?_
  obtain ⟨p, q, rfl⟩ : ∃ (p : Fin 1024) (q : Fin 1), y = ix2 p q := ⟨y 0, y 1, eq_ix2 y⟩
  show (out1_4 (F := Ideal) (iblk1 V c 0 t) (iblk1 V c 1 t) (iblk1 V c 2 t) : S1024x1.Idx → EReal) (ix2 p q)
    = Contrast.nrm (Contrast.proj (V c main_arg1) (V c main_v0) (V c main_v1)) ((((cfg1.win 4).blk t).view.emb (ix2 p q)) 0)
  refine (out1_n (iblk1 V c 0 t) (iblk1 V c 1 t) (iblk1 V c 2 t) p q).trans ?_
  rw [wblk1 V c t, bblk1 V c t]
  refine block_n (V c main_arg1) (V c main_v0) (V c main_v1) t.val (lt8_1 t) (iblk1 V c 0 t) (xblk1_rows V c t) p _ ?_
  show win1_4.index t (0 : Fin 2) * 1024 + 1 * p.val = t.val * 1024 + p.val; rw [e0]; omega

/-- Row r of the array is in the block of point r / 1024. -/
def ptOf1 (r : Fin 8192) : Fin cfg1.N := ⟨r.val / 1024, by rw [show cfg1.N = 8 from N_1]; have := r.isLt; omega⟩

/-- The array of z after the run is the projection of x. -/
theorem final1_z : (dat1 (F := Ideal) V c).arrAt 3 cfg1.N = Contrast.proj (V c main_arg1) (V c main_v0) (V c main_v1) :=
  (dat1 V c).arrAt_eq_of_cover 3 (Contrast.proj (V c main_arg1) (V c main_v0) (V c main_v1)) (fun t _ => flushed1_z V c t) fun i =>
    ⟨ptOf1 (i 0), flush1_3 _, by
      obtain ⟨-, -, -, -, -, -, e0, e1, -⟩ := idx1 (ptOf1 (i 0))
      show i ∈ ((View.whole main_v3_0).slice (win1_3.rect (ptOf1 (i 0)))).set
      rw [View.set_slice_whole, Rect.mem_set_unit]
      intro a
      have h0 : (i 0).val < 8192 := (i 0).isLt
      have h1 : (i 1).val < 256 := (i 1).isLt
      match a with
      | ⟨0, _⟩ =>
        show win1_3.index (ptOf1 (i 0)) (0 : Fin 2) * 1024 ≤ (i 0).val ∧ (i 0).val < win1_3.index (ptOf1 (i 0)) (0 : Fin 2) * 1024 + 1024
        rw [e0]; show (i 0).val / 1024 * 1024 ≤ (i 0).val ∧ (i 0).val < (i 0).val / 1024 * 1024 + 1024; omega
      | ⟨1, _⟩ =>
        show win1_3.index (ptOf1 (i 0)) (1 : Fin 2) * 256 ≤ (i 1).val ∧ (i 1).val < win1_3.index (ptOf1 (i 0)) (1 : Fin 2) * 256 + 256
        rw [e1]; omega⟩

/-- The array of norms after the run holds, at row r, the norm of row r of the projection of x. -/
theorem final1_n : (dat1 (F := Ideal) V c).arrAt 4 cfg1.N
    = fun i => Contrast.nrm (Contrast.proj (V c main_arg1) (V c main_v0) (V c main_v1)) (i 0) :=
  (dat1 V c).arrAt_eq_of_cover 4 (fun i : S8192x1.Idx => Contrast.nrm (Contrast.proj (V c main_arg1) (V c main_v0) (V c main_v1)) (i 0))
    (fun t _ => flushed1_n V c t) fun i =>
    ⟨ptOf1 (i 0), flush1_4 _, by
      obtain ⟨-, -, -, -, -, -, -, -, e0, e1⟩ := idx1 (ptOf1 (i 0))
      show i ∈ ((View.whole main_v3_1).slice (win1_4.rect (ptOf1 (i 0)))).set
      rw [View.set_slice_whole, Rect.mem_set_unit]
      intro a
      have h0 : (i 0).val < 8192 := (i 0).isLt
      have h1 : (i 1).val < 1 := (i 1).isLt
      match a with
      | ⟨0, _⟩ =>
        show win1_4.index (ptOf1 (i 0)) (0 : Fin 2) * 1024 ≤ (i 0).val ∧ (i 0).val < win1_4.index (ptOf1 (i 0)) (0 : Fin 2) * 1024 + 1024
        rw [e0]; show (i 0).val / 1024 * 1024 ≤ (i 0).val ∧ (i 0).val < (i 0).val / 1024 * 1024 + 1024; omega
      | ⟨1, _⟩ =>
        show win1_4.index (ptOf1 (i 0)) (1 : Fin 2) * 1 ≤ (i 1).val ∧ (i 1).val < win1_4.index (ptOf1 (i 0)) (1 : Fin 2) * 1 + 1
        rw [e1]; omega⟩

end Region1

end Cert.KernelIdeal.ProjValue

end
-- ==== Proof.KValue.lean ====
/-
  The value the whole program leaves in its result buffer.

  The host transposes the weight matrix and lays the bias out as one row; the first two launches project the two batches
  block of rows by block of rows and write the projections and their row norms; the host transposes the second batch's
  column of norms into a row; the third launch sums weight × mask over all pairs of rows for the two masks; the host forms
  −log(s₊ / (s₊ + s₋)). Reading the buffers back through these stages, the result is the specification's loss of the six
  argument arrays.
-/
import proofs.«112058_j47974784697102_1_alg».proof.Proof.KRun
import proofs.«112058_j47974784697102_1_alg».proof.Proof.Acc2
import proofs.«112058_j47974784697102_1_alg».proof.Proof.ProjValue
import Idealize.ShloMosaic.Lib.StableHlo.Run

noncomputable section

namespace Cert.KernelIdeal.KValue

open Idealize.ShloMosaic Idealize.ShloMosaic.TcCoe Idealize.ShloMosaic.ValueIdx Idealize.SL.Sem
open Idealize.ShloMosaic.Pipeline (Dat)
open Cert.KernelIdeal Cert.KernelIdeal.Gen Cert.Dense

variable (m : (ℓ : Loc nD τ sig) → Buf (Elt Ideal) ℓ) (ρ : Dev nD → PrngReg) (c : Dev nD)

/-! ## Before the first launch: the arguments as launched, the weights transposed, the bias as a row -/

theorem V1_arg0 : V1 m ρ c main_arg0 = m ((c : Thread nD τ).loc main_arg0) := by
  show StableHlo.after hostOps0 (W0 m ρ c) (Proc.devRef .tc main_arg0) = _; after_results
theorem V1_arg1 : V1 m ρ c main_arg1 = m ((c : Thread nD τ).loc main_arg1) := by
  show StableHlo.after hostOps0 (W0 m ρ c) (Proc.devRef .tc main_arg1) = _; after_results
theorem V1_arg2 : V1 m ρ c main_arg2 = m ((c : Thread nD τ).loc main_arg2) := by
  show StableHlo.after hostOps0 (W0 m ρ c) (Proc.devRef .tc main_arg2) = _; after_results
theorem V1_arg3 : V1 m ρ c main_arg3 = m ((c : Thread nD τ).loc main_arg3) := by
  show StableHlo.after hostOps0 (W0 m ρ c) (Proc.devRef .tc main_arg3) = _; after_results

/-- The transposed weights are the weights with their axes exchanged. -/
theorem V1_v0 : (V1 m ρ c main_v0 : Mat 256 256) = Cert.Contrast.tr (m ((c : Thread nD τ).loc main_arg4)) := by
  have e : V1 m ρ c main_v0 = transpose S256x256 [1, 0] (m ((c : Thread nD τ).loc main_arg4)) Facts₀.transposes_S256x256_S256x256_1_0 := by
    show StableHlo.after hostOps0 (W0 m ρ c) (Proc.devRef .tc main_v0) = _; after_results
  rw [e]
  funext j
  obtain ⟨p, q, rfl⟩ : ∃ (p q : Fin 256), j = ix2 p q := ⟨j 0, j 1, eq_ix2 j⟩
  exact transpose_apply [1, 0] _ _ (ix2 p q) (ix2 q p) (fun b => by
    match b with
    | ⟨0, _⟩ => rfl
    | ⟨1, _⟩ => rfl)

/-- The reshaped bias is the bias as a one-row matrix. -/
theorem V1_v1 : (V1 m ρ c main_v1 : Mat 1 256) = Cert.Contrast.row2 (m ((c : Thread nD τ).loc main_arg5)) := by
  have e : V1 m ρ c main_v1 = shapeCast S1x256 (m ((c : Thread nD τ).loc main_arg5)) Facts₀.shapeCasts_S256_S1x256 := by
    show StableHlo.after hostOps0 (W0 m ρ c) (Proc.devRef .tc main_v1) = _; after_results; rfl
  rw [e]
  funext j
  obtain ⟨p, q, rfl⟩ : ∃ (p : Fin 1) (q : Fin 256), j = ix2 p q := ⟨j 0, j 1, eq_ix2 j⟩
  obtain rfl : p = 0 := Subsingleton.elim _ _
  exact Cert.Layout.cast_vec_row_apply _ _ q

/-- The first batch's projection. -/
abbrev Z1 : Mat 8192 256 := Cert.Contrast.proj (m ((c : Thread nD τ).loc main_arg0)) (V1 m ρ c main_v0) (V1 m ρ c main_v1)
/-- The second batch's projection. -/
abbrev Z2 : Mat 8192 256 := Cert.Contrast.proj (m ((c : Thread nD τ).loc main_arg1)) (V1 m ρ c main_v0) (V1 m ρ c main_v1)

/-! ## After the first launch -/

theorem V2_z1 : V2 m ρ c main_v2_0 = Z1 m ρ c := by
  refine ((W2_arr m ρ c 3).trans (Cert.KernelIdeal.ProjValue.final0_z (V1 m ρ) c)).trans ?_
  rw [V1_arg0]
theorem V2_n1 : V2 m ρ c main_v2_1 = fun i => Cert.Contrast.nrm (Z1 m ρ c) (i 0) := by
  refine ((W2_arr m ρ c 4).trans (Cert.KernelIdeal.ProjValue.final0_n (V1 m ρ) c)).trans ?_
  rw [V1_arg0]
theorem V2_v0 : V2 m ρ c main_v0 = V1 m ρ c main_v0 :=
  (W2_arr m ρ c 1).trans (((dat0 (V1 m ρ) c).arrAt_in 1 rfl _).trans (A_eq0 (V1 m ρ) c 1))
theorem V2_v1 : V2 m ρ c main_v1 = V1 m ρ c main_v1 :=
  (W2_arr m ρ c 2).trans (((dat0 (V1 m ρ) c).arrAt_in 2 rfl _).trans (A_eq0 (V1 m ρ) c 2))
theorem V2_arg1 : V2 m ρ c main_arg1 = m ((c : Thread nD τ).loc main_arg1) :=
  (W2_of_ne m ρ c main_arg1 (by decide)).trans (V1_arg1 m ρ c)
theorem V2_arg2 : V2 m ρ c main_arg2 = m ((c : Thread nD τ).loc main_arg2) :=
  (W2_of_ne m ρ c main_arg2 (by decide)).trans (V1_arg2 m ρ c)
theorem V2_arg3 : V2 m ρ c main_arg3 = m ((c : Thread nD τ).loc main_arg3) :=
  (W2_of_ne m ρ c main_arg3 (by decide)).trans (V1_arg3 m ρ c)

/-! ## After the second launch -/

theorem V3_z2 : V3 m ρ c main_v3_0 = Z2 m ρ c := by
  refine ((W3_arr m ρ c 3).trans (Cert.KernelIdeal.ProjValue.final1_z (V2 m ρ) c)).trans ?_
  rw [V2_arg1, V2_v0, V2_v1]
theorem V3_n2 : V3 m ρ c main_v3_1 = fun i => Cert.Contrast.nrm (Z2 m ρ c) (i 0) := by
  refine ((W3_arr m ρ c 4).trans (Cert.KernelIdeal.ProjValue.final1_n (V2 m ρ) c)).trans ?_
  rw [V2_arg1, V2_v0, V2_v1]
theorem V3_z1 : V3 m ρ c main_v2_0 = Z1 m ρ c := (W3_of_ne m ρ c main_v2_0 (by decide)).trans (V2_z1 m ρ c)
theorem V3_n1 : V3 m ρ c main_v2_1 = fun i => Cert.Contrast.nrm (Z1 m ρ c) (i 0) :=
  (W3_of_ne m ρ c main_v2_1 (by decide)).trans (V2_n1 m ρ c)
theorem V3_arg2 : V3 m ρ c main_arg2 = m ((c : Thread nD τ).loc main_arg2) := (W3_of_ne m ρ c main_arg2 (by decide)).trans (V2_arg2 m ρ c)
theorem V3_arg3 : V3 m ρ c main_arg3 = m ((c : Thread nD τ).loc main_arg3) := (W3_of_ne m ρ c main_arg3 (by decide)).trans (V2_arg3 m ρ c)

/-! ## Before the third launch: the second batch's norms as a row -/

theorem V4_z1 : V4 m ρ c main_v2_0 = Z1 m ρ c := by
  refine Eq.trans ?_ (V3_z1 m ρ c)
  show StableHlo.after hostOps2 (W3 m ρ c) (Proc.devRef .tc main_v2_0) = _; after_results
theorem V4_z2 : V4 m ρ c main_v3_0 = Z2 m ρ c := by
  refine Eq.trans ?_ (V3_z2 m ρ c)
  show StableHlo.after hostOps2 (W3 m ρ c) (Proc.devRef .tc main_v3_0) = _; after_results
theorem V4_n1 : V4 m ρ c main_v2_1 = fun i => Cert.Contrast.nrm (Z1 m ρ c) (i 0) := by
  refine Eq.trans ?_ (V3_n1 m ρ c)
  show StableHlo.after hostOps2 (W3 m ρ c) (Proc.devRef .tc main_v2_1) = _; after_results
theorem V4_arg2 : V4 m ρ c main_arg2 = m ((c : Thread nD τ).loc main_arg2) := by
  refine Eq.trans ?_ (V3_arg2 m ρ c)
  show StableHlo.after hostOps2 (W3 m ρ c) (Proc.devRef .tc main_arg2) = _; after_results
theorem V4_arg3 : V4 m ρ c main_arg3 = m ((c : Thread nD τ).loc main_arg3) := by
  refine Eq.trans ?_ (V3_arg3 m ρ c)
  show StableHlo.after hostOps2 (W3 m ρ c) (Proc.devRef .tc main_arg3) = _; after_results
/-- The transposed column of norms, read at (0, q): the norm of row q. -/
theorem V4_n2 (q : Fin 8192) : (V4 m ρ c main_v4 : Mat 1 8192) (ix2 (0 : Fin 1) q) = Cert.Contrast.nrm (Z2 m ρ c) q := by
  have e : V4 m ρ c main_v4 = transpose S1x8192 [1, 0] (V3 m ρ c main_v3_1) Facts₀.transposes_S8192x1_S1x8192_1_0 := by
    show StableHlo.after hostOps2 (W3 m ρ c) (Proc.devRef .tc main_v4) = _; after_results
  rw [e, V3_n2]
  exact transpose_apply [1, 0] _ _ (ix2 (0 : Fin 1) q) (ix2 q (0 : Fin 1)) (fun b => by
    match b with
    | ⟨0, _⟩ => rfl
    | ⟨1, _⟩ => rfl)

/-! ## The two totals and the loss -/

theorem total_pos : Cert.KernelIdeal.Acc.total6 (V4 m ρ) c = fun _ => Cert.Contrast.total (Z1 m ρ c) (Z2 m ρ c) (m ((c : Thread nD τ).loc main_arg2)) := by
  funext _
  show Cert.Contrast.wsum (V4 m ρ c main_v2_0) (V4 m ρ c main_v3_0) (V4 m ρ c main_v2_1) (V4 m ρ c main_v4) (V4 m ρ c main_arg2) = _
  rw [V4_z1, V4_z2, V4_arg2]
  exact Cert.Contrast.wsum_eq_total _ _ _ _ _ (fun p => congrFun (V4_n1 m ρ c) (ix2 p (0 : Fin 1))) (fun q => V4_n2 m ρ c q)

theorem total_neg : Cert.KernelIdeal.Acc.total7 (V4 m ρ) c = fun _ => Cert.Contrast.total (Z1 m ρ c) (Z2 m ρ c) (m ((c : Thread nD τ).loc main_arg3)) := by
  funext _
  show Cert.Contrast.wsum (V4 m ρ c main_v2_0) (V4 m ρ c main_v3_0) (V4 m ρ c main_v2_1) (V4 m ρ c main_v4) (V4 m ρ c main_arg3) = _
  rw [V4_z1, V4_z2, V4_arg3]
  exact Cert.Contrast.wsum_eq_total _ _ _ _ _ (fun p => congrFun (V4_n1 m ρ c) (ix2 p (0 : Fin 1))) (fun q => V4_n2 m ρ c q)

/-- The result buffer holds the loss of the six argument arrays. -/
theorem value : W6 m ρ c (Proc.devRef .tc main_v11)
    = fun _ => Cert.Contrast.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps3 (W5 m ρ c) (Proc.devRef .tc main_v11) = _
  after_results
  rw [show W5 m ρ c (Proc.devRef .tc main_v5_0) = Cert.KernelIdeal.Acc.total6 (V4 m ρ) c from
        (W5_arr m ρ c 6).trans (Cert.KernelIdeal.Acc.final6 (V4 m ρ) c),
      show W5 m ρ c (Proc.devRef .tc main_v5_1) = Cert.KernelIdeal.Acc.total7 (V4 m ρ) c from
        (W5_arr m ρ c 7).trans (Cert.KernelIdeal.Acc.final7 (V4 m ρ) c),
      total_pos, total_neg]
  unfold Cert.Contrast.result
  rw [← V1_v0 m ρ c, ← V1_v1 m ρ c]
  rfl

/-- The run: the result buffer at the loss, the arguments unchanged. -/
theorem run : θ_run (defs (F := Ideal)) (onTc (τ := τ) (main (F := Ideal))) ⟨m, fun _ => 0, ρ⟩ (fun r => ∀ c : Dev nD,
      r.2.mem ((c.tc : Thread nD τ).loc main_v11) = (fun _ => Cert.Contrast.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (value m ρ c), (h c).2⟩) (Cert.KernelIdeal.RunV.run_result (F := Ideal) m ρ)

end Cert.KernelIdeal.KValue

end
-- ==== Proof.RefRun.lean ====
/-
  The reference program's @main as the list of its sixty-nine host operations, the four outlined functions
  (the exponential linear unit, its two selects, the row norm) written out at their call sites, and its run:
  every weakly fair execution terminates with every buffer at the operations' fold over the launch contents.
-/
import proofs.«112058_j47974784697102_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls unfolded: the affine layer (five operations), the unit (fifteen: three
    zero words with their broadcasts and comparisons, the inner select's three, exp − 1, the word of one with its
    broadcast, the product, the outer select), the same twenty for the second batch, the two row norms (five each:
    the squares, the zero word, the row sum, the column it is kept as, the square root), and the nineteen of the
    pairwise weights and the loss. -/
abbrev ops : List (HloOp τ sig (Elt F)) :=
  [ unary main_arg4 main_v0 ((transpose S256x256 [1, 0] · transposes_S256x256_S256x256_1_0) : (⟨S256x256, .f32⟩ : BufTy).Contents (Elt F) → (⟨S256x256, .f32⟩ : BufTy).Contents (Elt F)),
    binary main_arg0 main_v0 main_v1 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    unary main_arg5 main_v2 (broadcastInDim S1x256 ![1] bcast_S256_S1x256_1 : (⟨S256, .f32⟩ : BufTy).Contents (Elt F) → (⟨S1x256, .f32⟩ : BufTy).Contents (Elt F)),
    unary main_v2 main_v3 (broadcastInDim S8192x256 ![0, 1] bcast_S1x256_S8192x256_0_1 : (⟨S1x256, .f32⟩ : BufTy).Contents (Elt F) → (⟨S8192x256, .f32⟩ : BufTy).Contents (Elt F)),
    binary main_v1 main_v3 main_v4 (addf : (⟨S8192x256, .f32⟩ : BufTy).Contents (Elt F) → (⟨S8192x256, .f32⟩ : BufTy).Contents (Elt F) → (⟨S8192x256, .f32⟩ : BufTy).Contents (Elt F)),
    TRef.nullary main_call0.cst (constant S_ .f32 0x00000000#32),
    TRef.unary main_call0.cst main_call0.v0 (broadcastInDim S8192x256 ![] bcast_S_S8192x256),
    TRef.binary (.of main_v4) main_call0.v0 main_call0.v1 (cmpf .ogt),
    TRef.nullary main_call0.cst_0 (constant S_ .f32 0x00000000#32),
    TRef.unary main_call0.cst_0 main_call0.v2 (broadcastInDim S8192x256 ![] bcast_S_S8192x256),
    TRef.binary (.of main_v4) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S8192x256 ![] bcast_S_S8192x256),
    TRef.ternary main_call0.v3 main_call0.call0.v1 (.of main_v4) main_call0.call0.v2 select,
    TRef.unary main_call0.call0.v2 main_call0.v5 Host.expm1,
    TRef.nullary main_call0.cst_2 (constant S_ .f32 0x3F800000#32),
    TRef.unary main_call0.cst_2 main_call0.v6 (broadcastInDim S8192x256 ![] bcast_S_S8192x256),
    TRef.binary main_call0.v6 main_call0.v5 main_call0.v7 mulf,
    TRef.ternary main_call0.v1 (.of main_v4) main_call0.v7 main_call0.call1.v0 select,
    unary main_arg4 main_v6 ((transpose S256x256 [1, 0] · transposes_S256x256_S256x256_1_0) : (⟨S256x256, .f32⟩ : BufTy).Contents (Elt F) → (⟨S256x256, .f32⟩ : BufTy).Contents (Elt F)),
    binary main_arg1 main_v6 main_v7 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    unary main_arg5 main_v8 (broadcastInDim S1x256 ![1] bcast_S256_S1x256_1 : (⟨S256, .f32⟩ : BufTy).Contents (Elt F) → (⟨S1x256, .f32⟩ : BufTy).Contents (Elt F)),
    unary main_v8 main_v9 (broadcastInDim S8192x256 ![0, 1] bcast_S1x256_S8192x256_0_1 : (⟨S1x256, .f32⟩ : BufTy).Contents (Elt F) → (⟨S8192x256, .f32⟩ : BufTy).Contents (Elt F)),
    binary main_v7 main_v9 main_v10 (addf : (⟨S8192x256, .f32⟩ : BufTy).Contents (Elt F) → (⟨S8192x256, .f32⟩ : BufTy).Contents (Elt F) → (⟨S8192x256, .f32⟩ : BufTy).Contents (Elt F)),
    TRef.nullary main_call1.cst (constant S_ .f32 0x00000000#32),
    TRef.unary main_call1.cst main_call1.v0 (broadcastInDim S8192x256 ![] bcast_S_S8192x256),
    TRef.binary (.of main_v10) main_call1.v0 main_call1.v1 (cmpf .ogt),
    TRef.nullary main_call1.cst_0 (constant S_ .f32 0x00000000#32),
    TRef.unary main_call1.cst_0 main_call1.v2 (broadcastInDim S8192x256 ![] bcast_S_S8192x256),
    TRef.binary (.of main_v10) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S8192x256 ![] bcast_S_S8192x256),
    TRef.ternary main_call1.v3 main_call1.call0.v1 (.of main_v10) main_call1.call0.v2 select,
    TRef.unary main_call1.call0.v2 main_call1.v5 Host.expm1,
    TRef.nullary main_call1.cst_2 (constant S_ .f32 0x3F800000#32),
    TRef.unary main_call1.cst_2 main_call1.v6 (broadcastInDim S8192x256 ![] bcast_S_S8192x256),
    TRef.binary main_call1.v6 main_call1.v5 main_call1.v7 mulf,
    TRef.ternary main_call1.v1 (.of main_v10) main_call1.v7 main_call1.call1.v0 select,
    TRef.binary (.of main_v5) (.of main_v5) main_call2.v0 mulf,
    TRef.nullary main_call2.cst (constant S_ .f32 0x00000000#32),
    TRef.binary main_call2.v0 main_call2.cst main_call2.v1 (fun x v => Host.reduceAdd x v reducesTo_S8192x256_S8192_d1 h_S_),
    TRef.unary main_call2.v1 main_call2.v2 (broadcastInDim S8192x1 ![0] bcast_S8192_S8192x1_0),
    TRef.unary main_call2.v2 main_call2.v3 Host.sqrt,
    TRef.binary (.of main_v11) (.of main_v11) main_call3.v0 mulf,
    TRef.nullary main_call3.cst (constant S_ .f32 0x00000000#32),
    TRef.binary main_call3.v0 main_call3.cst main_call3.v1 (fun x v => Host.reduceAdd x v reducesTo_S8192x256_S8192_d1 h_S_),
    TRef.unary main_call3.v1 main_call3.v2 (broadcastInDim S8192x1 ![0] bcast_S8192_S8192x1_0),
    TRef.unary main_call3.v2 main_call3.v3 Host.sqrt,
    unary main_v11 main_v14 ((transpose S256x8192 [1, 0] · transposes_S8192x256_S256x8192_1_0) : (⟨S8192x256, .f32⟩ : BufTy).Contents (Elt F) → (⟨S256x8192, .f32⟩ : BufTy).Contents (Elt F)),
    binary main_v5 main_v14 main_v15 ((fun l r => Host.dotGeneral dot_S8192x256_S256x8192_S8192x8192_1_0_0_1_n_n none l r) : (⟨S8192x256, .f32⟩ : BufTy).Contents (Elt F) → (⟨S256x8192, .f32⟩ : BufTy).Contents (Elt F) → (⟨S8192x8192, .f32⟩ : BufTy).Contents (Elt F)),
    unary main_v13 main_v16 ((transpose S1x8192 [1, 0] · transposes_S8192x1_S1x8192_1_0) : (⟨S8192x1, .f32⟩ : BufTy).Contents (Elt F) → (⟨S1x8192, .f32⟩ : BufTy).Contents (Elt F)),
    binary main_v12 main_v16 main_v17 ((fun l r => Host.dotGeneral dot_S8192x1_S1x8192_S8192x8192_1_0_0_1_n_n none l r) : (⟨S8192x1, .f32⟩ : BufTy).Contents (Elt F) → (⟨S1x8192, .f32⟩ : BufTy).Contents (Elt F) → (⟨S8192x8192, .f32⟩ : BufTy).Contents (Elt F)),
    binary main_v15 main_v17 main_v18 (Host.divf : (⟨S8192x8192, .f32⟩ : BufTy).Contents (Elt F) → (⟨S8192x8192, .f32⟩ : BufTy).Contents (Elt F) → (⟨S8192x8192, .f32⟩ : BufTy).Contents (Elt F)),
    nullary main_cst (constant S_ .f32 0x3F000000#32),
    unary main_cst main_v19 (broadcastInDim S8192x8192 ![] bcast_S_S8192x8192 : (⟨S_, .f32⟩ : BufTy).Contents (Elt F) → (⟨S8192x8192, .f32⟩ : BufTy).Contents (Elt F)),
    binary main_v18 main_v19 main_v20 (Host.divf : (⟨S8192x8192, .f32⟩ : BufTy).Contents (Elt F) → (⟨S8192x8192, .f32⟩ : BufTy).Contents (Elt F) → (⟨S8192x8192, .f32⟩ : BufTy).Contents (Elt F)),
    unary main_v20 main_v21 (Host.exp : (⟨S8192x8192, .f32⟩ : BufTy).Contents (Elt F) → (⟨S8192x8192, .f32⟩ : BufTy).Contents (Elt F)),
    binary main_v21 main_arg2 main_v22 (mulf : (⟨S8192x8192, .f32⟩ : BufTy).Contents (Elt F) → (⟨S8192x8192, .f32⟩ : BufTy).Contents (Elt F) → (⟨S8192x8192, .f32⟩ : BufTy).Contents (Elt F)),
    binary main_v21 main_arg3 main_v23 (mulf : (⟨S8192x8192, .f32⟩ : BufTy).Contents (Elt F) → (⟨S8192x8192, .f32⟩ : BufTy).Contents (Elt F) → (⟨S8192x8192, .f32⟩ : BufTy).Contents (Elt F)),
    nullary main_cst_0 (constant S_ .f32 0x00000000#32),
    binary main_v22 main_cst_0 main_v24 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    binary main_v22 main_v23 main_v25 (addf : (⟨S8192x8192, .f32⟩ : BufTy).Contents (Elt F) → (⟨S8192x8192, .f32⟩ : BufTy).Contents (Elt F) → (⟨S8192x8192, .f32⟩ : BufTy).Contents (Elt F)),
    nullary main_cst_1 (constant S_ .f32 0x00000000#32),
    binary main_v25 main_cst_1 main_v26 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    binary main_v24 main_v26 main_v27 (Host.divf : (⟨S_, .f32⟩ : BufTy).Contents (Elt F) → (⟨S_, .f32⟩ : BufTy).Contents (Elt F) → (⟨S_, .f32⟩ : BufTy).Contents (Elt F)),
    unary main_v27 main_v28 (Host.log : (⟨S_, .f32⟩ : BufTy).Contents (Elt F) → (⟨S_, .f32⟩ : BufTy).Contents (Elt F)),
    unary main_v28 main_v29 (Host.negf : (⟨S_, .f32⟩ : BufTy).Contents (Elt F) → (⟨S_, .f32⟩ : BufTy).Contents (Elt F)) ]

/-- @main is that straight line: the functions' definitions unfold at their calls, and sequencing a function's body
    before the rest of @main is, by computation, the one chain of steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., unary_bufs_sub .., ternary_bufs_sub .., unary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., unary_bufs_sub ..,
    nullary_bufs_sub .., unary_bufs_sub .., binary_bufs_sub .., ternary_bufs_sub .., binary_bufs_sub .., nullary_bufs_sub ..,
    binary_bufs_sub .., unary_bufs_sub .., unary_bufs_sub .., binary_bufs_sub .., nullary_bufs_sub .., binary_bufs_sub ..,
    unary_bufs_sub .., unary_bufs_sub .., unary_bufs_sub .., binary_bufs_sub .., unary_bufs_sub .., binary_bufs_sub ..,
    binary_bufs_sub .., nullary_bufs_sub .., unary_bufs_sub .., binary_bufs_sub .., unary_bufs_sub .., binary_bufs_sub ..,
    binary_bufs_sub .., nullary_bufs_sub .., binary_bufs_sub .., binary_bufs_sub .., nullary_bufs_sub .., binary_bufs_sub ..,
    binary_bufs_sub .., unary_bufs_sub .., unary_bufs_sub ..⟩

/-- On every device, for any float values, from any memory with zero counters: every weakly fair execution of @main
    terminates, and every final state has each buffer at the operations' fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefValue.lean ====
/-
  The reference program's result is the contrastive loss of its six arguments.

  Each stage of the host's straight line is read at an entry as the function of the specification: the transposed weights,
  the affine layer, the exponential linear unit in its guarded form, the row norms kept as columns, the two matrix
  products (the rows' inner products, and the outer product of the norms through one contracted entry), the division by
  the word of one half, the two sums over both axes, and the final quotient, logarithm and negation.
-/
import proofs.«112058_j47974784697102_1_alg».proof.Proof.RefRun
import proofs.«112058_j47974784697102_1_alg».proof.Proof.Spec
import proofs.«112058_j47974784697102_1_alg».proof.Proof.LibRowStat
import proofs.«112058_j47974784697102_1_alg».proof.Proof.LibColumn

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.Dense
open Cert.ReferenceIdeal.RefRun (ops)

/-! ## The host's spelling of each stage -/

/-- x · Wᵀ + b: the product with the transposed weights, plus the bias broadcast to one row and then over the rows. -/
def affH (x : FVec Ideal S8192x256 .f32) (W : FVec Ideal S256x256 .f32) (b : FVec Ideal S256 .f32) : FVec Ideal S8192x256 .f32 :=
  addf (Host.dotGeneral (F := Ideal) dot_S8192x256_S256x256_S8192x256_1_0_0_1_n_n none x (transpose S256x256 [1, 0] W transposes_S256x256_S256x256_1_0))
    (broadcastInDim S8192x256 ![0, 1] bcast_S1x256_S8192x256_0_1 (broadcastInDim S1x256 ![1] bcast_S256_S1x256_1 b))

/-- The unit: where y > 0 it is y, elsewhere one times exp − 1 of y, itself replaced by zero where y > 0. -/
def eluH (y : FVec Ideal S8192x256 .f32) : FVec Ideal S8192x256 .f32 :=
  select (cmpf .ogt y (broadcastInDim S8192x256 ![] bcast_S_S8192x256 (constant (F := Ideal) S_ .f32 0x00000000#32))) y
    (mulf (broadcastInDim S8192x256 ![] bcast_S_S8192x256 (constant (F := Ideal) S_ .f32 0x3F800000#32))
      (Host.expm1 (select (cmpf .ogt y (broadcastInDim S8192x256 ![] bcast_S_S8192x256 (constant (F := Ideal) S_ .f32 0x00000000#32)))
        (broadcastInDim S8192x256 ![] bcast_S_S8192x256 (id (constant (F := Ideal) S_ .f32 0x00000000#32))) y)))

/-- The row norms kept as a column: the square root of the rows' sums of squares. -/
def normH (z : FVec Ideal S8192x256 .f32) : FVec Ideal S8192x1 .f32 :=
  Host.sqrt (broadcastInDim S8192x1 ![0] bcast_S8192_S8192x1_0
    (Host.reduceAdd (F := Ideal) (mulf z z) (constant (F := Ideal) S_ .f32 0x00000000#32) reducesTo_S8192x256_S8192_d1 h_S_))

/-- The pairwise weights: exp of (the rows' inner products over the norms' outer product) over one half. -/
def simH (z1 z2 : FVec Ideal S8192x256 .f32) : FVec Ideal S8192x8192 .f32 :=
  Host.exp (Host.divf (F := Ideal)
    (Host.divf (F := Ideal)
      (Host.dotGeneral (F := Ideal) dot_S8192x256_S256x8192_S8192x8192_1_0_0_1_n_n none z1 (transpose S256x8192 [1, 0] z2 transposes_S8192x256_S256x8192_1_0))
      (Host.dotGeneral (F := Ideal) dot_S8192x1_S1x8192_S8192x8192_1_0_0_1_n_n none (normH z1) (transpose S1x8192 [1, 0] (normH z2) transposes_S8192x1_S1x8192_1_0)))
    (broadcastInDim S8192x8192 ![] bcast_S_S8192x8192 (constant (F := Ideal) S_ .f32 0x3F000000#32)))

/-- The loss of a weight matrix against the two masks. -/
def lossH (s pos neg : FVec Ideal S8192x8192 .f32) : FVec Ideal S_ .f32 :=
  Host.negf (Host.log (Host.divf (F := Ideal)
    (Host.reduceAdd (F := Ideal) (mulf s pos) (constant (F := Ideal) S_ .f32 0x00000000#32) reducesTo_S8192x8192_S_d0_1 h_S_)
    (Host.reduceAdd (F := Ideal) (addf (mulf s pos) (mulf s neg)) (constant (F := Ideal) S_ .f32 0x00000000#32) reducesTo_S8192x8192_S_d0_1 h_S_)))

/-- The whole line, as a function of the six arguments. -/
def outH (x1 x2 : FVec Ideal S8192x256 .f32) (pos neg : FVec Ideal S8192x8192 .f32) (W : FVec Ideal S256x256 .f32)
    (b : FVec Ideal S256 .f32) : FVec Ideal S_ .f32 :=
  lossH (simH (eluH (affH x1 W b)) (eluH (affH x2 W b))) pos neg

/-! ## Each stage read at an entry -/

/-- The host's transpose of a matrix is the matrix with its axes exchanged. -/
theorem transpose_eq_tr {a b : ℕ} (W : Mat a b) (h : (⟨2, ![a, b]⟩ : Shape).Transposes [1, 0] ⟨2, ![b, a]⟩) :
    transpose ⟨2, ![b, a]⟩ [1, 0] W h = Contrast.tr W := by
  funext i
  obtain ⟨p, q, rfl⟩ : ∃ (p : Fin b) (q : Fin a), i = ix2 p q := ⟨i 0, i 1, eq_ix2 i⟩
  exact transpose_ix2_apply W h p q

/-- The affine layer is the specification's, the bias read as a one-row matrix. -/
theorem affH_eq (x : Mat 8192 256) (W : Mat 256 256) (b : Row 256) :
    affH x W b = affine2 x (Contrast.tr W) (Contrast.row2 b) := by
  unfold affH
  rw [transpose_eq_tr W transposes_S256x256_S256x256_1_0,
    affine_eq_affine2 x (Contrast.tr W) b (Contrast.row2 b) (fun q => rfl)]
  exact addf_dotGeneral_broadcastInDim (M := 8192) (K := 256) (N := 256) x (Contrast.tr W) b bcast_S256_S1x256_1 bcast_S1x256_S8192x256_0_1

/-- The guarded unit at an entry, its three broadcast words read as the words they are. -/
theorem elu_host_apply (y B0 B0' B1 : FVec Ideal S8192x256 .f32) (i : S8192x256.Idx)
    (h0 : B0 i = Ideal.ofBits .f32 0x00000000#32) (h0' : B0' i = Ideal.ofBits .f32 0x00000000#32)
    (h1 : B1 i = Ideal.ofBits .f32 0x3F800000#32) :
    select (cmpf .ogt y B0) y (mulf B1 (Host.expm1 (select (cmpf .ogt y B0) B0' y))) i = Contrast.elu (y i) := by
  show Scalar.select (Ideal.cmp .ogt (y i) (B0 i)) (y i)
      (B1 i * (Ideal.exp (Scalar.select (Ideal.cmp .ogt (y i) (B0 i)) (B0' i) (y i)) - 1)) = _
  rw [h0, h0', h1]
  exact Contrast.elu_guarded (y i)

/-- The host's unit is the exponential linear unit, entry by entry. -/
theorem eluH_apply (y : FVec Ideal S8192x256 .f32) (i : S8192x256.Idx) : eluH y i = Contrast.elu (y i) :=
  elu_host_apply y _ _ _ i (Cert.Layout.bcast_scalar_apply _ _ i) (Cert.Layout.bcast_scalar_apply _ _ i)
    (Cert.Layout.bcast_scalar_apply _ _ i)

/-- The column of norms at (p, q) is the norm of row p. -/
theorem normH_apply (z : Mat 8192 256) (p : Fin 8192) (q : Fin 1) : normH z (ix2 p q) = Contrast.nrm z p := by
  unfold normH Contrast.nrm
  refine congrArg Ideal.sqrt ?_
  refine (Cert.Layout.bcast_vec_col_apply _ bcast_S8192_S8192x1_0 p q).trans ?_
  exact hostRowSum_apply (M := 8192) (K := 256) (mulf z z) reducesTo_S8192x256_S8192_d1 h_S_ (by decide)
    (fun p k => funext fun c => Fin.ext (match c with | ⟨0, _⟩ => rfl | ⟨1, _⟩ => rfl)) p

/-- The product of the first projection with the second one transposed, at (p, q): the inner product of rows p and q. -/
theorem dot_rows_apply (z1 z2 : FVec Ideal S8192x256 .f32) (p q : Fin 8192) :
    Host.dotGeneral (F := Ideal) dot_S8192x256_S256x8192_S8192x8192_1_0_0_1_n_n none z1
        (transpose S256x8192 [1, 0] z2 transposes_S8192x256_S256x8192_1_0) (ix2 p q)
      = ∑ k : Fin 256, z1 (ix2 p k) * z2 (ix2 q k) := by
  rw [transpose_eq_tr z2 transposes_S8192x256_S256x8192_1_0]
  show Host.dotGeneral (F := Ideal) (DotDims.plain 8192 256 8192) none z1 (Contrast.tr z2) (ix2 p q) = _
  rw [dotGeneral_plain]
  rfl

/-- The product of a column with a transposed column, one contracted entry: the outer product. -/
theorem dot_cols_apply (n1 n2 : FVec Ideal S8192x1 .f32) (p q : Fin 8192) :
    Host.dotGeneral (F := Ideal) dot_S8192x1_S1x8192_S8192x8192_1_0_0_1_n_n none n1
        (transpose S1x8192 [1, 0] n2 transposes_S8192x1_S1x8192_1_0) (ix2 p q)
      = n1 (ix2 p (0 : Fin 1)) * n2 (ix2 q (0 : Fin 1)) := by
  rw [transpose_eq_tr n2 transposes_S8192x1_S1x8192_1_0]
  show Host.dotGeneral (F := Ideal) (DotDims.plain 8192 1 8192) none n1 (Contrast.tr n2) (ix2 p q) = _
  rw [dotGeneral_plain]
  exact Fin.sum_univ_one _

/-- exp of a quotient of quotients whose last divisor is the word of one half. -/
theorem sim_host_apply (D N H : FVec Ideal S8192x8192 .f32) (i : S8192x8192.Idx) (d n : EReal) (hD : D i = d) (hN : N i = n)
    (hH : H i = Ideal.ofBits .f32 0x3F000000#32) :
    Host.exp (Host.divf (F := Ideal) (Host.divf (F := Ideal) D N) H) i = Ideal.exp (Ideal.div d n * 2) := by
  show Ideal.exp (Ideal.div (Ideal.div (D i) (N i)) (H i)) = _
  rw [hD, hN, hH, Contrast.div_half]

/-- The host's weight of the pair (p, q) is the specification's. -/
theorem simH_apply (z1 z2 : Mat 8192 256) (p q : Fin 8192) : simH z1 z2 (ix2 p q) = Contrast.sim z1 z2 p q := by
  unfold simH Contrast.sim
  exact sim_host_apply _ _ _ (ix2 p q) _ _ (dot_rows_apply z1 z2 p q)
    ((dot_cols_apply (normH z1) (normH z2) p q).trans (by rw [normH_apply, normH_apply]))
    (Cert.Layout.bcast_scalar_apply _ _ _)

/-- The host's sum of a square array over both axes, from the zero word: the double sum over the coordinates. -/
theorem hostTotal2 (v : FVec Ideal S8192x8192 .f32) (j : S_.Idx) :
    Host.reduceAdd (F := Ideal) v (constant (F := Ideal) S_ .f32 0x00000000#32) reducesTo_S8192x8192_S_d0_1 h_S_ j
      = ∑ p : Fin 8192, ∑ q : Fin 8192, v (ix2 p q) := by
  simp only [Host.reduceAdd, Ideal.hostReduceAdd_def]
  rw [Ideal.hostReduceAdd_total reducesTo_S8192x8192_S_d0_1 (fun b => b.elim0)]
  show Ideal.ofBits .f32 0x00000000#32 + ∑ i, v i = _
  rw [Ideal.ofBits_zero_f32, zero_add, sum_idx2]

/-- The host's loss of a weight matrix whose entries are S p q. -/
theorem lossH_apply (s pos neg : FVec Ideal S8192x8192 .f32) (j : S_.Idx) (S : Fin 8192 → Fin 8192 → EReal)
    (hs : ∀ p q, s (ix2 p q) = S p q) :
    lossH s pos neg j
      = Contrast.loss (∑ p : Fin 8192, ∑ q : Fin 8192, S p q * pos (ix2 p q)) (∑ p : Fin 8192, ∑ q : Fin 8192, S p q * neg (ix2 p q)) := by
  have e1 : (∑ p : Fin 8192, ∑ q : Fin 8192, mulf s pos (ix2 p q)) = ∑ p : Fin 8192, ∑ q : Fin 8192, S p q * pos (ix2 p q) :=
    Finset.sum_congr rfl fun p _ => Finset.sum_congr rfl fun q _ => by
      show s (ix2 p q) * pos (ix2 p q) = _
      rw [hs]
  have e2 : (∑ p : Fin 8192, ∑ q : Fin 8192, addf (mulf s pos) (mulf s neg) (ix2 p q))
      = (∑ p : Fin 8192, ∑ q : Fin 8192, S p q * pos (ix2 p q)) + ∑ p : Fin 8192, ∑ q : Fin 8192, S p q * neg (ix2 p q) := by
    rw [← Finset.sum_add_distrib]
    refine Finset.sum_congr rfl fun p _ => ?_
    rw [← Finset.sum_add_distrib]
    refine Finset.sum_congr rfl fun q _ => ?_
    show s (ix2 p q) * pos (ix2 p q) + s (ix2 p q) * neg (ix2 p q) = _
    rw [hs]
  unfold lossH Contrast.loss
  show -(Ideal.log (Ideal.div
      (Host.reduceAdd (F := Ideal) (mulf s pos) (constant (F := Ideal) S_ .f32 0x00000000#32) reducesTo_S8192x8192_S_d0_1 h_S_ j)
      (Host.reduceAdd (F := Ideal) (addf (mulf s pos) (mulf s neg)) (constant (F := Ideal) S_ .f32 0x00000000#32) reducesTo_S8192x8192_S_d0_1 h_S_ j))) = _
  rw [hostTotal2, hostTotal2, e1, e2]

/-- The whole line is the specification's result at its one entry. -/
theorem outH_eq (x1 x2 : Mat 8192 256) (pos neg : Mat 8192 8192) (W : Mat 256 256) (b : Row 256) :
    outH x1 x2 pos neg W b = fun _ => Contrast.result x1 x2 pos neg W b := by
  have hz : ∀ x : Mat 8192 256, eluH (affH x W b) = Contrast.proj x (Contrast.tr W) (Contrast.row2 b) := fun x => by
    funext i
    rw [eluH_apply, affH_eq]
    rfl
  funext j
  unfold outH Contrast.result Contrast.total
  rw [hz x1, hz x2]
  exact lossH_apply _ pos neg j _ (fun p q => simH_apply _ _ p q)

/-! ## The run -/

set_option maxRecDepth 16384 in
set_option maxHeartbeats 4000000 in
/-- The fold of the sixty-nine operations at the result buffer is the whole line applied to the arguments' contents. -/
theorem out_eq (V : Valuation τ sig (Elt Ideal)) :
    after (ops (F := Ideal)) V (main_v29 : DevRef τ sig)
      = outH (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  rfl

set_option maxRecDepth 16384 in
set_option maxHeartbeats 4000000 in
/-- No operation writes this argument. -/
theorem arg0_eq (V : Valuation τ sig (Elt Ideal)) :
    after (ops (F := Ideal)) V (main_arg0 : DevRef τ sig) = V (main_arg0 : DevRef τ sig) := by
  after_results_simp

set_option maxRecDepth 16384 in
set_option maxHeartbeats 4000000 in
/-- No operation writes this argument. -/
theorem arg1_eq (V : Valuation τ sig (Elt Ideal)) :
    after (ops (F := Ideal)) V (main_arg1 : DevRef τ sig) = V (main_arg1 : DevRef τ sig) := by
  after_results_simp

set_option maxRecDepth 16384 in
set_option maxHeartbeats 4000000 in
/-- No operation writes this argument. -/
theorem arg2_eq (V : Valuation τ sig (Elt Ideal)) :
    after (ops (F := Ideal)) V (main_arg2 : DevRef τ sig) = V (main_arg2 : DevRef τ sig) := by
  after_results_simp

set_option maxRecDepth 16384 in
set_option maxHeartbeats 4000000 in
/-- No operation writes this argument. -/
theorem arg3_eq (V : Valuation τ sig (Elt Ideal)) :
    after (ops (F := Ideal)) V (main_arg3 : DevRef τ sig) = V (main_arg3 : DevRef τ sig) := by
  after_results_simp

set_option maxRecDepth 16384 in
set_option maxHeartbeats 4000000 in
/-- No operation writes this argument. -/
theorem arg4_eq (V : Valuation τ sig (Elt Ideal)) :
    after (ops (F := Ideal)) V (main_arg4 : DevRef τ sig) = V (main_arg4 : DevRef τ sig) := by
  after_results_simp

set_option maxRecDepth 16384 in
set_option maxHeartbeats 4000000 in
/-- No operation writes this argument. -/
theorem arg5_eq (V : Valuation τ sig (Elt Ideal)) :
    after (ops (F := Ideal)) V (main_arg5 : DevRef τ sig) = V (main_arg5 : DevRef τ sig) := by
  after_results_simp

/-- On every device, from any memory with zero counters: every weakly fair execution of @main terminates with the result
    buffer at the contrastive loss of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v29) = (fun _ => Cert.Contrast.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c main_v29).trans (out_eq (launchContents m c))).trans (outH_eq _ _ _ _ _ _),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c))⟩)
    (RefRun.run m ρ)

end Cert.ReferenceIdeal.RefValue

end
-- ==== Proof.lean ====
/-
  The certificate of the contrastive-loss program against its reference.

  Both programs, read on the extended reals, compute −log(s₊ / (s₊ + s₋)), where s± is the sum over all pairs of rows (p, q)
  of exp(2 · ⟨z1_p, z2_q⟩ / (|z1_p| · |z2_q|)) times a mask entry and z1, z2 are the two batches after an affine layer and
  the exponential linear unit. The kernel program projects block of rows by block of rows, keeps the row norms, and
  accumulates the two sums tile by tile over an 8 × 8 grid; the reference works on whole arrays, divides by one half where
  the kernel multiplies by two, spells the unit through exp − 1 on a guarded argument, and sums the two masked products
  together. The sums agree because addition of extended reals is commutative and associative; no finiteness is used.
  The three frames are the launch-by-launch run of the kernel program and the straight-line run of the reference; the
  idealization rewrote nothing.
-/
import proofs.«112058_j47974784697102_1_alg».proof.Defs
import proofs.«112058_j47974784697102_1_alg».proof.Proof.Gen.Kernel
import proofs.«112058_j47974784697102_1_alg».proof.Proof.Gen.Kernel.Frame
import proofs.«112058_j47974784697102_1_alg».proof.Proof.Gen.KernelIdeal
import proofs.«112058_j47974784697102_1_alg».proof.Proof.Gen.KernelIdeal.Frame
import proofs.«112058_j47974784697102_1_alg».proof.Proof.Gen.ReferenceIdeal
import proofs.«112058_j47974784697102_1_alg».proof.Proof.Gen.Pre_finite_inputs
import proofs.«112058_j47974784697102_1_alg».proof.Proof.KValue
import proofs.«112058_j47974784697102_1_alg».proof.Proof.RefValue
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.run m ρ)

/-- Both programs end with the specification's loss of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2.1, (hagree c).2.2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
